-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S64x128 .f32) (main_arg10 : FVec F S128 .f32) (main_arg11 : FVec F S128x10 .f32) (main_arg12 : FVec F S10 .f32) (main_v33 : IVec S_ 1) : IVec S_ 1 :=
  let main_v34 : FVec F S64x128 .f32 := Host.absf main_arg9
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x10 .f32 := Host.absf main_arg11
  let main_cst_16 : FVec F S_ .f32 := constant S_ .f32 0x7F800000#32
  let main_v45 : FVec F S128x10 .f32 := broadcastInDim S128x10 ![] bcast_S_S128x10 main_cst_16
  let main_v46 : IVec S128x10 1 := cmpf .olt main_v44 main_v45
  let main_c_17 : IVec S_ 1 := constantI S_ 1 1#1
  let main_v47 : IVec S_ 1 := (fun x v => Host.reduce IntOp.andi x v reducesTo_S128x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S64x128 .f32) (main_arg10 : FVec F S128 .f32) (main_arg11 : FVec F S128x10 .f32) (main_arg12 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x128 .f32) (main_arg10 : FVec F S128 .f32) (main_arg11 : FVec F S128x10 .f32) (main_arg12 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S100000x64 : Shape := ⟨2, ![100000, 64]⟩
abbrev S10000x128 : Shape := ⟨2, ![10000, 128]⟩
abbrev S10000x64 : Shape := ⟨2, ![10000, 64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S5000x64 : Shape := ⟨2, ![5000, 64]⟩
abbrev S1x128 : Shape := ⟨2, ![1, 128]⟩
abbrev S5000x128 : Shape := ⟨2, ![5000, 128]⟩
abbrev S100000x1 : Shape := ⟨2, ![100000, 1]⟩
abbrev S64x1 : Shape := ⟨2, ![64, 1]⟩
abbrev S64x10 : Shape := ⟨2, ![64, 10]⟩
abbrev S1x10 : Shape := ⟨2, ![1, 10]⟩

abbrev nBuf : Space → Nat
  | .hbm => 85
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x128, .f32⟩
  | .hbm, ⟨10, _⟩ => ⟨S128, .f32⟩
  | .hbm, ⟨11, _⟩ => ⟨S128x10, .f32⟩
  | .hbm, ⟨12, _⟩ => ⟨S10, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S100000x64, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S1x64, .f32⟩
  | .hbm, ⟨32, _⟩ => ⟨S1x64, .f32⟩
  | .hbm, ⟨33, _⟩ => ⟨S100000x64, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x64, .f32⟩
  | .hbm, ⟨43, _⟩ => ⟨S_, .f32⟩
  | .hbm, ⟨44, _⟩ => ⟨S100000x64, .f32⟩
  | .hbm, ⟨45, _⟩ => ⟨S1600000x1, .i32⟩
  | .hbm, ⟨46, _⟩ => ⟨S100000x64, .f32⟩
  | .hbm, ⟨47, _⟩ => ⟨S1x64, .f32⟩
  | .hbm, ⟨48, _⟩ => ⟨S1x128, .f32⟩
  | .hbm, ⟨49, _⟩ => ⟨S100000x128, .f32⟩
  | .hbm, ⟨50, _⟩ => ⟨S_, .f32⟩
  | .hbm, ⟨51, _⟩ => ⟨S64x128, .f32⟩
  | .hbm, ⟨52, _⟩ => ⟨S100000x1, .i32⟩
  | .hbm, ⟨53, _⟩ => ⟨S64x128, .f32⟩
  | .hbm, ⟨54, _⟩ => ⟨S_, .f32⟩
  | .hbm, ⟨55, _⟩ => ⟨S100000, .f32⟩
  | .hbm, ⟨56, _⟩ => ⟨S_, .f32⟩
  | .hbm, ⟨57, _⟩ => ⟨S64, .f32⟩
  | .hbm, ⟨58, _⟩ => ⟨S100000x1, .i32⟩
  | .hbm, ⟨59, _⟩ => ⟨S64, .f32⟩
  | .hbm, ⟨60, _⟩ => ⟨S_, .f32⟩
  | .hbm, ⟨61, _⟩ => ⟨S64, .f32⟩
  | .hbm, ⟨62, _⟩ => ⟨S64, .f32⟩
  | .hbm, ⟨63, _⟩ => ⟨S64x1, .f32⟩
  | .hbm, ⟨64, _⟩ => ⟨S64x128, .f32⟩
  | .hbm, ⟨65, _⟩ => ⟨S64x128, .f32⟩
  | .hbm, ⟨66, _⟩ => ⟨S64x10, .f32⟩
  | .hbm, ⟨67, _⟩ => ⟨S1x10, .f32⟩
  | .hbm, ⟨68, _⟩ => ⟨S64x10, .f32⟩
  | .hbm, ⟨69, _⟩ => ⟨S64x10, .f32⟩
  | .hbm, ⟨70, _⟩ => ⟨S_, .f32⟩
  | .hbm, ⟨71, _⟩ => ⟨S64, .f32⟩
  | .hbm, ⟨72, _⟩ => ⟨S_, .f32⟩
  | .hbm, ⟨73, _⟩ => ⟨S64, .f32⟩
  | .hbm, ⟨74, _⟩ => ⟨S64, .f32⟩
  | .hbm, ⟨75, _⟩ => ⟨S64x1, .f32⟩
  | .hbm, ⟨76, _⟩ => ⟨S64x10, .f32⟩
  | .hbm, ⟨77, _⟩ => ⟨S64x10, .f32⟩
  | .hbm, ⟨78, _⟩ => ⟨S64x10, .f32⟩
  | .hbm, ⟨79, _⟩ => ⟨S_, .f32⟩
  | .hbm, ⟨80, _⟩ => ⟨S64, .f32⟩
  | .hbm, ⟨81, _⟩ => ⟨S64x1, .f32⟩
  | .hbm, ⟨82, _⟩ => ⟨S64x1, .f32⟩
  | .hbm, ⟨83, _⟩ => ⟨S64x10, .f32⟩
  | .hbm, ⟨84, _⟩ => ⟨S64x10, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S1x64, .f32⟩
  | .local _ .vmem, ⟨20, _⟩ => ⟨S64x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_1 : Ref sig .tc := ⟨.hbm, 34, rfl⟩
abbrev main_v18 : Ref sig .tc := ⟨.hbm, 35, rfl⟩
abbrev main_v19 : Ref sig .tc := ⟨.hbm, 36, rfl⟩
abbrev main_c_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call0_cst : Ref sig .tc := ⟨.hbm, 70, rfl⟩
abbrev main_call0_v0 : Ref sig .tc := ⟨.hbm, 71, rfl⟩
abbrev main_call0_cst_0 : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_call0_v5 : Ref sig .tc := ⟨.hbm, 77, rfl⟩
abbrev main_call0_v6 : Ref sig .tc := ⟨.hbm, 78, rfl⟩
abbrev main_call0_cst_1 : Ref sig .tc := ⟨.hbm, 79, rfl⟩
abbrev main_call0_v7 : Ref sig .tc := ⟨.hbm, 80, rfl⟩
abbrev main_call0_v8 : Ref sig .tc := ⟨.hbm, 81, rfl⟩
abbrev main_call0_v9 : Ref sig .tc := ⟨.hbm, 82, rfl⟩
abbrev main_call0_v10 : Ref sig .tc := ⟨.hbm, 83, rfl⟩
abbrev main_v47 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S128_S1x128 : S128.ShapeCasts S1x128
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S64x128 : S_.BroadcastsInDim S64x128 (![] : Fin 0 → Fin S64x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  reducesTo_S64x10_S64_d1 : S64x10.ReducesTo [1] S64
  h_S_ : 0 < S_.numel
  bcast_S64x1_S64x10_0_1 : S64x1.BroadcastsInDim S64x10 (![0, 1] : Fin 2 → Fin S64x10.rank)
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x128_S5000x128_1_0_0_1_n_n_wf : DotDims.WF S5000x64 S64x128 S5000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x128.size a ≤ S64x128.size a
  hwx2_4 : ∀ i : grid2.Coords, EltTy.bits .f32 = 32 ∨ (Rect.block (s := S64x128) S64x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v17) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S64x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v29) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v30) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x64 : Shape := ⟨2, ![100000, 64]⟩
abbrev S1x64 : Shape := ⟨2, ![1, 64]⟩
abbrev S1600000x64 : Shape := ⟨2, ![1600000, 64]⟩
abbrev S1x128 : Shape := ⟨2, ![1, 128]⟩
abbrev S100000x1 : Shape := ⟨2, ![100000, 1]⟩
abbrev S64x1 : Shape := ⟨2, ![64, 1]⟩
abbrev S64x10 : Shape := ⟨2, ![64, 10]⟩
abbrev S1x10 : Shape := ⟨2, ![1, 10]⟩

abbrev nBuf : Space → Nat
  | .hbm => 109
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x128, .f32⟩
  | .hbm, ⟨10, _⟩ => ⟨S128, .f32⟩
  | .hbm, ⟨11, _⟩ => ⟨S128x10, .f32⟩
  | .hbm, ⟨12, _⟩ => ⟨S10, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S100000x128, .f32⟩
  | .hbm, ⟨31, _⟩ => ⟨S100000x64, .f32⟩
  | .hbm, ⟨32, _⟩ => ⟨S1x64, .f32⟩
  | .hbm, ⟨33, _⟩ => ⟨S100000x64, .f32⟩
  | .hbm, ⟨34, _⟩ => ⟨S100000x64, .f32⟩
  | .hbm, ⟨35, _⟩ => ⟨S_, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S_, .f32⟩
  | .hbm, ⟨43, _⟩ => ⟨S100000x64, .f32⟩
  | .hbm, ⟨44, _⟩ => ⟨S100000x64, .f32⟩
  | .hbm, ⟨45, _⟩ => ⟨S1x1600000, .i32⟩
  | .hbm, ⟨46, _⟩ => ⟨S1600000, .i32⟩
  | .hbm, ⟨47, _⟩ => ⟨S1x1600000, .i32⟩
  | .hbm, ⟨48, _⟩ => ⟨S1600000, .i32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | .hbm, ⟨67, _⟩ => ⟨S_, .f32⟩
  | .hbm, ⟨68, _⟩ => ⟨S100000x64, .f32⟩
  | .hbm, ⟨69, _⟩ => ⟨S100000x64, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S64x128, .f32⟩
  | .hbm, ⟨76, _⟩ => ⟨S100000x1, .i32⟩
  | .hbm, ⟨77, _⟩ => ⟨S64x128, .f32⟩
  | .hbm, ⟨78, _⟩ => ⟨S_, .f32⟩
  | .hbm, ⟨79, _⟩ => ⟨S100000, .f32⟩
  | .hbm, ⟨80, _⟩ => ⟨S_, .f32⟩
  | .hbm, ⟨81, _⟩ => ⟨S64, .f32⟩
  | .hbm, ⟨82, _⟩ => ⟨S100000x1, .i32⟩
  | .hbm, ⟨83, _⟩ => ⟨S64, .f32⟩
  | .hbm, ⟨84, _⟩ => ⟨S_, .f32⟩
  | .hbm, ⟨85, _⟩ => ⟨S64, .f32⟩
  | .hbm, ⟨86, _⟩ => ⟨S64, .f32⟩
  | .hbm, ⟨87, _⟩ => ⟨S64x1, .f32⟩
  | .hbm, ⟨88, _⟩ => ⟨S64x128, .f32⟩
  | .hbm, ⟨89, _⟩ => ⟨S64x128, .f32⟩
  | .hbm, ⟨90, _⟩ => ⟨S64x10, .f32⟩
  | .hbm, ⟨91, _⟩ => ⟨S1x10, .f32⟩
  | .hbm, ⟨92, _⟩ => ⟨S64x10, .f32⟩
  | .hbm, ⟨93, _⟩ => ⟨S64x10, .f32⟩
  | .hbm, ⟨94, _⟩ => ⟨S_, .f32⟩
  | .hbm, ⟨95, _⟩ => ⟨S64, .f32⟩
  | .hbm, ⟨96, _⟩ => ⟨S_, .f32⟩
  | .hbm, ⟨97, _⟩ => ⟨S64, .f32⟩
  | .hbm, ⟨98, _⟩ => ⟨S64, .f32⟩
  | .hbm, ⟨99, _⟩ => ⟨S64x1, .f32⟩
  | .hbm, ⟨100, _⟩ => ⟨S64x10, .f32⟩
  | .hbm, ⟨101, _⟩ => ⟨S64x10, .f32⟩
  | .hbm, ⟨102, _⟩ => ⟨S64x10, .f32⟩
  | .hbm, ⟨103, _⟩ => ⟨S_, .f32⟩
  | .hbm, ⟨104, _⟩ => ⟨S64, .f32⟩
  | .hbm, ⟨105, _⟩ => ⟨S64x1, .f32⟩
  | .hbm, ⟨106, _⟩ => ⟨S64x1, .f32⟩
  | .hbm, ⟨107, _⟩ => ⟨S64x10, .f32⟩
  | .hbm, ⟨108, _⟩ => ⟨S64x10, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_cst : Ref sig .tc := ⟨.hbm, 35, rfl⟩
abbrev main_call0_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call1_cst : Ref sig .tc := ⟨.hbm, 42, rfl⟩
abbrev main_call1_v0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_1 : Ref sig .tc := ⟨.hbm, 49, rfl⟩
abbrev main_v29 : Ref sig .tc := ⟨.hbm, 50, rfl⟩
abbrev main_v30 : Ref sig .tc := ⟨.hbm, 51, rfl⟩
abbrev main_c_2 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_3 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_call2_cst : Ref sig .tc := ⟨.hbm, 67, rfl⟩
abbrev main_call2_v0 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_4 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_5 : Ref sig .tc := ⟨.hbm, 78, rfl⟩
abbrev main_v52 : Ref sig .tc := ⟨.hbm, 79, rfl⟩
abbrev main_cst_6 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_7 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call3_cst : Ref sig .tc := ⟨.hbm, 94, rfl⟩
abbrev main_call3_v0 : Ref sig .tc := ⟨.hbm, 95, rfl⟩
abbrev main_call3_cst_0 : Ref sig .tc := ⟨.hbm, 96, rfl⟩
abbrev main_call3_v1 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_v5 : Ref sig .tc := ⟨.hbm, 101, rfl⟩
abbrev main_call3_v6 : Ref sig .tc := ⟨.hbm, 102, rfl⟩
abbrev main_call3_cst_1 : Ref sig .tc := ⟨.hbm, 103, rfl⟩
abbrev main_call3_v7 : Ref sig .tc := ⟨.hbm, 104, rfl⟩
abbrev main_call3_v8 : Ref sig .tc := ⟨.hbm, 105, rfl⟩
abbrev main_call3_v9 : Ref sig .tc := ⟨.hbm, 106, rfl⟩
abbrev main_call3_v10 : Ref sig .tc := ⟨.hbm, 107, rfl⟩
abbrev main_v65 : Ref sig .tc := ⟨.hbm, 108, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  reducesTo_S64x10_S64_d1 : S64x10.ReducesTo [1] S64
  h_S_ : 0 < S_.numel
  bcast_S64x1_S64x10_0_1 : S64x1.BroadcastsInDim S64x10 (![0, 1] : Fin 2 → Fin S64x10.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x10_S64x10_1_0_0_1_n_n_wf : DotDims.WF S64x128 S128x10 S64x10 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.KernelRun.lean ====
/-
  The idealized kernel's run with its result named.

  The program is eight segments: the host operations that cut the edge list into sources and targets, the
  first product `x · W1` as a grid of row blocks, the host operations that add up the neighbours' rows,
  the second grid (both layers of the first perceptron, fused), the neighbour sum again, the third grid (the
  second perceptron), and the host operations that pool the nodes of each graph, classify and normalise.
  Every weakly fair execution runs through them in order and ends with each unscoped buffer holding what
  the fold of these segments leaves in it; here that fold is read at the result buffer as well as at the
  thirteen argument arrays, which no segment writes.
-/
import proofs.«147684_j45208825757773_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer
    at what the last segment boundary holds there and the argument arrays as launched. -/
theorem run_named : θ_run defs (onTc (τ := τ) (main (F := F))) ⟨m, fun _ => 0, ρ⟩ (fun r => ∀ c : Dev nD,
      r.2.mem ((c.tc : Thread nD τ).loc main_v47) = W8 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v47 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

end Cert.KernelIdeal.RunValue

end
-- ==== Proof.Spec.lean ====
/-
  The three dense stages as functions of whole arrays, entry by entry, at exact values.

  * `prod X W`: the matrix product, entry `(p, c) ↦ ∑ k, X (p, k) · W (k, c)`.
  * `layer1 Y A b1 W2 b2`: both layers of the first perceptron applied to `Y + A` (a node's own projected row
    plus the sum of its neighbours' projected rows): `relu (relu ((Y + A) + b1) · W2 + b2)`.
  * `layer2 H A W3 b3 W4 b4`: the second perceptron applied to `H + A`: `relu ((H + A) · W3 + b3) · W4 + b4`.

  The biases enter as one-row matrices, the form in which the grid stages are handed them.  Each stage
  acts row by row: row `p` of the result depends on row `p` of the row-indexed arguments only, which is
  why a block of rows of the result is the stage applied to the same block of rows of the arguments.
-/
import Idealize.ShloMosaic.Lib.ValueIdx
import Idealize.ShloMosaic.Lib.Pipeline.Value
import Idealize.ShloMosaic.PureOps.Ideal.Laws

noncomputable section

open scoped BigOperators

namespace Cert.Spec

open Idealize.ShloMosaic Idealize.ShloMosaic.ValueIdx

/-- The exact value of the float zero the programs compare against and start their sums from. -/
abbrev z : EReal := Ideal.ofBits .f32 0x00000000#32

/-- The row coordinate of a matrix index, as a number below the row count. -/
abbrev row {n m : ℕ} (i : (⟨2, ![n, m]⟩ : Shape).Idx) : Fin n := ⟨(i 0).val, idx2_lt0 i⟩
/-- The column coordinate of a matrix index. -/
abbrev col {n m : ℕ} (i : (⟨2, ![n, m]⟩ : Shape).Idx) : Fin m := ⟨(i 1).val, idx2_lt1 i⟩

theorem row_ix2 {n m : ℕ} (p : Fin n) (c : Fin m) : row (ix2 p c) = p := Fin.ext rfl
theorem col_ix2 {n m : ℕ} (p : Fin n) (c : Fin m) : col (ix2 p c) = c := Fin.ext rfl

/-- The matrix product. -/
def prod {n K m : ℕ} (X : (⟨2, ![n, K]⟩ : Shape).Idx → EReal) (W : (⟨2, ![K, m]⟩ : Shape).Idx → EReal) :
    (⟨2, ![n, m]⟩ : Shape).Idx → EReal :=
  fun i => ∑ k : Fin K, X (ix2 (row i) k) * W (ix2 k (col i))

/-- Both layers of the first perceptron on `Y + A`, with the outer `relu`. -/
def layer1 {n : ℕ} (Y A : (⟨2, ![n, 64]⟩ : Shape).Idx → EReal) (b1 : (⟨2, ![1, 64]⟩ : Shape).Idx → EReal)
    (W2 : (⟨2, ![64, 64]⟩ : Shape).Idx → EReal) (b2 : (⟨2, ![1, 64]⟩ : Shape).Idx → EReal) :
    (⟨2, ![n, 64]⟩ : Shape).Idx → EReal :=
  fun i => max ((∑ k : Fin 64, max ((Y (ix2 (row i) k) + A (ix2 (row i) k)) + b1 (ix2 (0 : Fin 1) k)) z * W2 (ix2 k (col i)))
    + b2 (ix2 (0 : Fin 1) (col i))) z

/-- The second perceptron on `H + A`. -/
def layer2 {n : ℕ} (H A : (⟨2, ![n, 64]⟩ : Shape).Idx → EReal) (W3 : (⟨2, ![64, 64]⟩ : Shape).Idx → EReal)
    (b3 : (⟨2, ![1, 64]⟩ : Shape).Idx → EReal) (W4 : (⟨2, ![64, 128]⟩ : Shape).Idx → EReal)
    (b4 : (⟨2, ![1, 128]⟩ : Shape).Idx → EReal) : (⟨2, ![n, 128]⟩ : Shape).Idx → EReal :=
  fun i => (∑ k : Fin 64, max ((∑ j : Fin 64, (H (ix2 (row i) j) + A (ix2 (row i) j)) * W3 (ix2 j k)) + b3 (ix2 (0 : Fin 1) k)) z
      * W4 (ix2 k (col i)))
    + b4 (ix2 (0 : Fin 1) (col i))

/-- A one-row matrix repeated down `n` rows, read at an entry: the entry of the row in the same column. -/
theorem bcastRow_apply {n m : ℕ} (hm : m ≠ 1) {α : Type} (v : (⟨2, ![1, m]⟩ : Shape).Idx → α)
    (h : (⟨2, ![1, m]⟩ : Shape).Broadcasts ⟨2, ![n, m]⟩) (i : (⟨2, ![n, m]⟩ : Shape).Idx) :
    broadcastTo ⟨2, ![n, m]⟩ v h i = v (ix2 (0 : Fin 1) (col i)) := by
  refine broadcastTo_apply v h i _ fun a => ?_
  match a with
  | ⟨0, _⟩ => simp
  | ⟨1, _⟩ =>
    show (i 1).val = if m = 1 then 0 else (i 1).val
    rw [if_neg hm]

/-- A vector laid out as a one-row matrix, read at an entry of the row. -/
theorem rowOf_apply {m : ℕ} {α : Type} (b : (⟨1, ![m]⟩ : Shape).Idx → α)
    (h : (⟨1, ![m]⟩ : Shape).ShapeCasts ⟨2, ![1, m]⟩) (k : Fin m) :
    shapeCast ⟨2, ![1, m]⟩ b h (ix2 (0 : Fin 1) k) = b (ix1 k) := by
  refine shapeCast_apply b h _ _ ?_
  rw [Shape.rowMajor_val_one, Shape.rowMajor_val_two]
  show k.val = 0 * m + k.val
  omega

end Cert.Spec

end
-- ==== Proof.Tail.lean ====
/-
  What both programs do with the node embeddings `h2 : [100000, 128]`.

  The rows of `h2` are added up per graph (a scatter-add by the graph number of each node), the sums are
  divided by the number of nodes of the graph (at least one), the pooled rows go through the classifier
  `· Wfc + bfc`, and each row of logits is normalised: `l − max l − log ∑ exp (l − max l)`.  The two programs
  spell this stretch operation for operation alike, so it is one function `tail` of `h2`, the graph numbers,
  and the classifier's weights; nothing about it is used beyond that it is a function.
-/
import proofs.«147684_j45208825757773_2_alg».proof.Proof.Gen.ReferenceIdeal.Read

noncomputable section

namespace Cert.Tail

open Cert.ReferenceIdeal Cert.ReferenceIdeal.Gen Idealize.ShloMosaic

variable {F : FTy → Type} [FloatOps F]

/-- The number of nodes of each graph, at least one, repeated along the feature axis. -/
def counts (x2 : IVec S100000 32) : FVec F S64x128 .f32 :=
  broadcastInDim S64x128 ![0, 1] bcast_S64x1_S64x128_0_1 (broadcastInDim S64x1 ![0] bcast_S64_S64x1_0
    (maximumf (Host.scatterAdd scatter_S64_S100000x1_S100000_n_0_0_1 (broadcastInDim S64 ![] bcast_S_S64 (constant S_ .f32 0x00000000#32))
        (broadcastInDim S100000x1 ![0] bcast_S100000_S100000x1_0 x2) (broadcastInDim S100000 ![] bcast_S_S100000 (constant S_ .f32 0x3F800000#32)))
      (broadcastInDim S64 ![] bcast_S_S64 (constant S_ .f32 0x3F800000#32))))

/-- The classifier applied to the mean of each graph's rows. -/
def logits (h2 : FVec F S100000x128 .f32) (x2 : IVec S100000 32) (x11 : FVec F S128x10 .f32) (x12 : FVec F S10 .f32) :
    FVec F S64x10 .f32 :=
  addf (Host.dotGeneral dot_S64x128_S128x10_S64x10_1_0_0_1_n_n none
      (Host.divf (Host.scatterAdd scatter_S64x128_S100000x1_S100000x128_1_0_0_1 (broadcastInDim S64x128 ![] bcast_S_S64x128 (constant S_ .f32 0x00000000#32))
          (broadcastInDim S100000x1 ![0] bcast_S100000_S100000x1_0 x2) h2) (counts (F := F) x2)) x11)
    (broadcastInDim S64x10 ![0, 1] bcast_S1x10_S64x10_0_1 (broadcastInDim S1x10 ![1] bcast_S10_S1x10_1 x12))

/-- A row of logits less its maximum. -/
def shifted (l : FVec F S64x10 .f32) : FVec F S64x10 .f32 :=
  subf l (broadcastInDim S64x10 ![0, 1] bcast_S64x1_S64x10_0_1 (broadcastInDim S64x1 ![0] bcast_S64_S64x1_0
    (maximumf (broadcastInDim S64 ![] bcast_S_S64 (constant S_ .f32 0xFF800000#32))
      (Host.reduce FloatOps.maximumf l (constant S_ .f32 0xFF800000#32) reducesTo_S64x10_S64_d1 h_S_))))

/-- The logarithm of the softmax of each row. -/
def logSoftmax (l : FVec F S64x10 .f32) : FVec F S64x10 .f32 :=
  subf (shifted l) (broadcastInDim S64x10 ![0, 1] bcast_S64x1_S64x10_0_1 (Host.log (broadcastInDim S64x1 ![0] bcast_S64_S64x1_0
    (Host.reduceAdd (Host.exp (shifted l)) (constant S_ .f32 0x00000000#32) reducesTo_S64x10_S64_d1 h_S_))))

/-- Pooling, classifier and normalisation. -/
def tail (h2 : FVec F S100000x128 .f32) (x2 : IVec S100000 32) (x11 : FVec F S128x10 .f32) (x12 : FVec F S10 .f32) :
    FVec F S64x10 .f32 :=
  logSoftmax (logits h2 x2 x11 x12)

open Cert.ReferenceIdeal.Read in
/-- The reference's result is `tail` of its node embeddings. -/
theorem ref_eq (x0 : FVec F S100000x128 .f32) (x1 : IVec S2x1600000 32) (x2 : IVec S100000 32) (x3 : FVec F S128x64 .f32)
    (x4 : FVec F S64 .f32) (x5 : FVec F S64x64 .f32) (x6 : FVec F S64 .f32) (x7 : FVec F S64x64 .f32) (x8 : FVec F S64 .f32)
    (x9 : FVec F S64x128 .f32) (x10 : FVec F S128 .f32) (x11 : FVec F S128x10 .f32) (x12 : FVec F S10 .f32) :
    val_main_v65 (F := F) x0 x1 x2 x3 x4 x5 x6 x7 x8 x9 x10 x11 x12
      = tail (val_main_v48 (F := F) x0 x1 x3 x4 x5 x6 x7 x8 x9 x10) x2 x11 x12 := rfl

end Cert.Tail

end
-- ==== Proof.LibMatmul.lean ====
/-
  A plain matrix product read at an entry: for an `[n, K]` matrix times a `[K, m]` matrix accumulated
  into zero, entry `(p, c)` of the result is the sum over `k` of `lhs (p, k) * rhs (k, c)`, at the exact
  values. The dimension numbers enter only through four facts about where the operand indices come
  from (rows of the left operand from the result's rows, its columns from the contraction position;
  rows of the right operand from the contraction position, its columns from the result's columns).
-/
import Idealize.ShloMosaic.Lib.ValueIdx
import Idealize.ShloMosaic.PureOps.Ideal.Laws

noncomputable section

namespace Cert.PlainDot

open Idealize.ShloMosaic Idealize.ShloMosaic.ValueIdx

/-- Entry `(p, c)` of a plain product into a zero accumulator is `∑ k, lhs (p, k) * rhs (k, c)`. -/
theorem matmul_zero_apply {n K m : ℕ} {φ₁ φ₂ : FTy}
    (D : DotDims ⟨2, ![n, K]⟩ ⟨2, ![K, m]⟩ ⟨2, ![n, m]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![n, K]⟩ φ₁) (rhs : FVec Ideal ⟨2, ![K, m]⟩ φ₂) (p : Fin n) (c : Fin m) :
    matmul D prec lhs rhs (constant ⟨2, ![n, m]⟩ .f32 0x00000000#32) (ix2 p c)
      = ∑ k : Fin K, lhs (ix2 p k) * rhs (ix2 k c) := by
  show FloatOps.matmul D prec lhs rhs (constant ⟨2, ![n, m]⟩ .f32 0x00000000#32) (ix2 p c) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainDot

end
-- ==== Proof.Stage0.lean ====
/-
  The first grid stage: `x · W1`, ten blocks of ten thousand rows.

  At grid point `t` the body reads rows `[10000 t, 10000 (t + 1))` of `x` and the whole of `W1`, multiplies
  them (the change of float format in between is the identity at exact values, and the accumulator starts
  at zero), and writes rows `[10000 t, 10000 (t + 1))` of the result.  A row of a product depends on the same
  row of the left factor only, so what point `t` writes is that block of rows of the whole product; the
  blocks of the ten points tile the result (row `r` is in the block of point `r / 10000`), so after the stage
  the array is `prod x W1`.  Everything is stated at the contents `V` the stage finds when it is entered.
-/
import proofs.«147684_j45208825757773_2_alg».proof.Proof.Gen.KernelIdeal.Frame
import proofs.«147684_j45208825757773_2_alg».proof.Proof.LibMatmul
import proofs.«147684_j45208825757773_2_alg».proof.Proof.Spec

set_option maxRecDepth 16384

noncomputable section

open scoped BigOperators

namespace Cert.KernelIdeal.Stage0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Spec

theorem hz : (![0, 0] : Fin 2 → Nat) = fun _ => 0 := funext fun a => by fin_cases a <;> rfl

theorem hl0 (i : S10000x64.Idx) (q : (dot_S10000x128_S128x64_S10000x64_1_0_0_1_n_n).contr.Idx) : ((dot_S10000x128_S128x64_S10000x64_1_0_0_1_n_n).lhsIdx i q 0).val = (i 0).val := by
  unfold DotDims.lhsIdx
  rw [dif_neg (show ¬(0 : Fin S10000x128.rank) ∈ (dot_S10000x128_S128x64_S10000x64_1_0_0_1_n_n).lhsBatch by decide),
    dif_pos (show (0 : Fin S10000x128.rank) ∈ (dot_S10000x128_S128x64_S10000x64_1_0_0_1_n_n).lhsNonContracting by decide)]
  rfl
theorem hl1 (i : S10000x64.Idx) (q : (dot_S10000x128_S128x64_S10000x64_1_0_0_1_n_n).contr.Idx) : ((dot_S10000x128_S128x64_S10000x64_1_0_0_1_n_n).lhsIdx i q 1).val = (q ⟨0, by decide⟩).val :=
  (dot_S10000x128_S128x64_S10000x64_1_0_0_1_n_n).lhsIdx_val_of_single rfl i q
theorem hr0 (i : S10000x64.Idx) (q : (dot_S10000x128_S128x64_S10000x64_1_0_0_1_n_n).contr.Idx) : ((dot_S10000x128_S128x64_S10000x64_1_0_0_1_n_n).rhsIdx i q 0).val = (q ⟨0, by decide⟩).val :=
  (dot_S10000x128_S128x64_S10000x64_1_0_0_1_n_n).rhsIdx_val_of_single rfl i q
theorem hr1 (i : S10000x64.Idx) (q : (dot_S10000x128_S128x64_S10000x64_1_0_0_1_n_n).contr.Idx) : ((dot_S10000x128_S128x64_S10000x64_1_0_0_1_n_n).rhsIdx i q 1).val = (i 1).val := by
  unfold DotDims.rhsIdx
  rw [dif_neg (show ¬(1 : Fin S128x64.rank) ∈ (dot_S10000x128_S128x64_S10000x64_1_0_0_1_n_n).rhsBatch by decide),
    dif_pos (show (1 : Fin S128x64.rank) ∈ (dot_S10000x128_S128x64_S10000x64_1_0_0_1_n_n).rhsNonContracting by decide)]
  rfl

/-- The body's arithmetic on a block of rows is the product of the block with the weights. -/
theorem pay_eq (x0 : Vec Ideal S10000x128 .f32) (x1 : Vec Ideal S128x64 .f32) :
    k0_pay1 (F := Ideal) x0 x1 = prod (n := 10000) (K := 128) (m := 64) x0 x1 := by
  funext j
  obtain ⟨r, q, rfl⟩ : ∃ (r : Fin 10000) (q : Fin 64), j = ix2 r q := ⟨j 0, j 1, eq_ix2 j⟩
  unfold k0_pay1 prod
  refine (Cert.PlainDot.matmul_zero_apply (dot_S10000x128_S128x64_S10000x64_1_0_0_1_n_n) none rfl rfl hl0 hl1 hr0 hr1 _ _ r q).trans ?_
  rfl

/-- The printed index maps over the grid: the row block of `x` and of the result is the point's number, every
    other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block of rows of the product is the product of the block of rows of the left factor. -/
theorem read_block (X : S100000x128.Idx → EReal) (W : S128x64.Idx → EReal) (t : Fin cfg0.N) (r : Fin 10000) (q : Fin 64) :
    prod (n := 10000) (K := 128) (m := 64) (fun y => X (((cfg0.win 0).blk t).view.emb y)) (fun y => W (((cfg0.win 1).blk t).view.emb y)) (ix2 r q)
      = prod (n := 100000) (K := 128) (m := 64) X W (((cfg0.win 2).blk t).view.emb (ix2 r q)) := by
  obtain ⟨e0, e1, e2, e3, e4, e5⟩ := idx_facts t
  unfold prod
  refine Finset.sum_congr rfl fun k _ => ?_
  refine congrArg₂ (· * ·) (congrArg X ?_) (congrArg W ?_)
  · funext a; apply Fin.ext
    match a with
    | ⟨0, _⟩ => show win0_0.index t (0 : Fin 2) * 10000 + 1 * r.val = win0_2.index t (0 : Fin 2) * 10000 + 1 * r.val; omega
    | ⟨1, _⟩ => show win0_0.index t (1 : Fin 2) * 128 + 1 * k.val = k.val; omega
  · funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega

variable (V : (c : Dev nD) → (b : Ref sig .tc) → Buf (Elt Ideal) ((c : Thread nD τ).loc b))

/-- What point `t` writes back is its block of rows of the whole product. -/
theorem flushed_eq (c : Dev nD) (t : Fin cfg0.N) :
    (dat0 V c).flushed 2 t = ((cfg0.win 2).blk t).view.read (Elt Ideal)
      (prod (n := 100000) (K := 128) (m := 64) (V c main_arg0) (V c main_arg3)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  rw [pay_eq]
  funext j
  obtain ⟨r, q, rfl⟩ : ∃ (r : Fin 10000) (q : Fin 64), j = ix2 r q := ⟨j 0, j 1, eq_ix2 j⟩
  exact read_block (V c main_arg0) (V c main_arg3) t r q

/-- An index of the result is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v4).slice (win0_2.rect t)).set ↔ _
  rw [View.set_slice_whole, Rect.mem_set_unit]
  exact Iff.rfl

/-- Every entry of the result is in the block of the point its row falls in. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  refine ⟨⟨(i 0).val / 10000, by show (i 0).val / 10000 < grid0.N; omega⟩, flush0_2 _, ?_⟩
  rw [mem_blk]
  obtain ⟨e0, e1, e2, e3, e4, e5⟩ := idx_facts ⟨(i 0).val / 10000, by show (i 0).val / 10000 < grid0.N; omega⟩
  intro a
  match a with
  | ⟨0, _⟩ =>
    show win0_2.index _ (0 : Fin 2) * 10000 ≤ (i 0).val ∧ (i 0).val < win0_2.index _ (0 : Fin 2) * 10000 + 10000
    rw [e4]; show (i 0).val / 10000 * 10000 ≤ (i 0).val ∧ (i 0).val < (i 0).val / 10000 * 10000 + 10000; omega
  | ⟨1, _⟩ =>
    show win0_2.index _ (1 : Fin 2) * 64 ≤ (i 1).val ∧ (i 1).val < win0_2.index _ (1 : Fin 2) * 64 + 64
    rw [e5]; omega

/-- After the stage its result array is the whole product. -/
theorem final (c : Dev nD) :
    (dat0 V c).arrAt 2 cfg0.N = prod (n := 100000) (K := 128) (m := 64) (V c main_arg0) (V c main_arg3) :=
  (dat0 V c).arrAt_eq_of_cover 2 _ (fun t _ => flushed_eq V c t) cover

end Cert.KernelIdeal.Stage0

end
-- ==== Proof.Stage1.lean ====
/-
  The second grid stage: both layers of the first perceptron, twenty blocks of five thousand rows.

  At grid point `t` the body reads rows `[5000 t, 5000 (t + 1))` of the projected features `Y` and of the
  neighbours' sum `A`, and the whole of `b1`, `W2`, `b2` (the biases as one-row matrices repeated down the
  block); it forms `relu ((Y + A) + b1)`, multiplies by `W2` into a zero accumulator, adds `b2`, applies
  `relu`, and writes the block of rows.  On a block this arithmetic is `layer1` of the block; `layer1` acts
  row by row, so the block written is that block of rows of `layer1` of the whole arrays; the twenty blocks
  tile the result.  Everything is stated at the contents `V` the stage finds when it is entered.
-/
import proofs.«147684_j45208825757773_2_alg».proof.Proof.Gen.KernelIdeal.Frame
import proofs.«147684_j45208825757773_2_alg».proof.Proof.LibMatmul
import proofs.«147684_j45208825757773_2_alg».proof.Proof.Spec

set_option maxRecDepth 16384

noncomputable section

open scoped BigOperators

namespace Cert.KernelIdeal.Stage1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Spec

theorem hz : (![0, 0] : Fin 2 → Nat) = fun _ => 0 := funext fun a => by fin_cases a <;> rfl

theorem hl0 (i : S5000x64.Idx) (q : (dot_S5000x64_S64x64_S5000x64_1_0_0_1_n_n).contr.Idx) : ((dot_S5000x64_S64x64_S5000x64_1_0_0_1_n_n).lhsIdx i q 0).val = (i 0).val := by
  unfold DotDims.lhsIdx
  rw [dif_neg (show ¬(0 : Fin S5000x64.rank) ∈ (dot_S5000x64_S64x64_S5000x64_1_0_0_1_n_n).lhsBatch by decide),
    dif_pos (show (0 : Fin S5000x64.rank) ∈ (dot_S5000x64_S64x64_S5000x64_1_0_0_1_n_n).lhsNonContracting by decide)]
  rfl
theorem hl1 (i : S5000x64.Idx) (q : (dot_S5000x64_S64x64_S5000x64_1_0_0_1_n_n).contr.Idx) : ((dot_S5000x64_S64x64_S5000x64_1_0_0_1_n_n).lhsIdx i q 1).val = (q ⟨0, by decide⟩).val :=
  (dot_S5000x64_S64x64_S5000x64_1_0_0_1_n_n).lhsIdx_val_of_single rfl i q
theorem hr0 (i : S5000x64.Idx) (q : (dot_S5000x64_S64x64_S5000x64_1_0_0_1_n_n).contr.Idx) : ((dot_S5000x64_S64x64_S5000x64_1_0_0_1_n_n).rhsIdx i q 0).val = (q ⟨0, by decide⟩).val :=
  (dot_S5000x64_S64x64_S5000x64_1_0_0_1_n_n).rhsIdx_val_of_single rfl i q
theorem hr1 (i : S5000x64.Idx) (q : (dot_S5000x64_S64x64_S5000x64_1_0_0_1_n_n).contr.Idx) : ((dot_S5000x64_S64x64_S5000x64_1_0_0_1_n_n).rhsIdx i q 1).val = (i 1).val := by
  unfold DotDims.rhsIdx
  rw [dif_neg (show ¬(1 : Fin S64x64.rank) ∈ (dot_S5000x64_S64x64_S5000x64_1_0_0_1_n_n).rhsBatch by decide),
    dif_pos (show (1 : Fin S64x64.rank) ∈ (dot_S5000x64_S64x64_S5000x64_1_0_0_1_n_n).rhsNonContracting by decide)]
  rfl

/-- The body's arithmetic on a block of rows is `layer1` of the block. -/
theorem pay_eq (v0 v2 : Vec Ideal S5000x64 .f32) (v5 : Vec Ideal S1x64 .f32) (v12 : Vec Ideal S64x64 .f32) (v15 : Vec Ideal S1x64 .f32) :
    k1_pay1 (F := Ideal) v0 v2 v5 v12 v15 = layer1 (n := 5000) v0 v2 v5 v12 v15 := by
  funext j
  obtain ⟨r, q, rfl⟩ : ∃ (r : Fin 5000) (q : Fin 64), j = ix2 r q := ⟨j 0, j 1, eq_ix2 j⟩
  unfold k1_pay1 layer1
  simp only [shapeCast_self]
  simp only [maximumf_apply, addf_apply, broadcast_apply]
  rw [Cert.PlainDot.matmul_zero_apply (dot_S5000x64_S64x64_S5000x64_1_0_0_1_n_n) none rfl rfl hl0 hl1 hr0 hr1]
  refine congrArg₂ max ?_ rfl
  refine congrArg₂ (· + ·) (Finset.sum_congr rfl fun k _ => ?_) ?_
  · refine congrArg₂ (· * ·) ?_ rfl
    show max ((v0 (ix2 r k) + v2 (ix2 r k)) + broadcastTo S5000x64 v5 broadcasts_S1x64_S5000x64 (ix2 r k)) z = _
    rw [bcastRow_apply (by decide) v5 broadcasts_S1x64_S5000x64 (ix2 r k)]
  · exact bcastRow_apply (by decide) v15 broadcasts_S1x64_S5000x64 (ix2 r q)

/-- The printed index maps over the grid: the row block of `Y`, of `A` and of the result is the point's
    number, every other block index is zero. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A block of rows of `layer1` is `layer1` of the block of rows of the row-indexed arguments. -/
theorem read_block (Y A : S100000x64.Idx → EReal) (b1 : S1x64.Idx → EReal) (W2 : S64x64.Idx → EReal) (b2 : S1x64.Idx → EReal)
    (t : Fin cfg1.N) (r : Fin 5000) (q : Fin 64) :
    layer1 (n := 5000) (fun y => Y (((cfg1.win 0).blk t).view.emb y)) (fun y => A (((cfg1.win 1).blk t).view.emb y))
        (fun y => b1 (((cfg1.win 2).blk t).view.emb y)) (fun y => W2 (((cfg1.win 3).blk t).view.emb y))
        (fun y => b2 (((cfg1.win 4).blk t).view.emb y)) (ix2 r q)
      = layer1 (n := 100000) Y A b1 W2 b2 (((cfg1.win 5).blk t).view.emb (ix2 r q)) := by
  obtain ⟨e00, e01, e10, e11, e20, e21, e30, e31, e40, e41, e50, e51⟩ := idx_facts t
  unfold layer1
  refine congrArg₂ max ?_ rfl
  refine congrArg₂ (· + ·) (Finset.sum_congr rfl fun k _ => ?_) (congrArg b2 ?_)
  · refine congrArg₂ (· * ·) (congrArg₂ max ?_ rfl) (congrArg W2 ?_)
    · refine congrArg₂ (· + ·) (congrArg₂ (· + ·) (congrArg Y ?_) (congrArg A ?_)) (congrArg b1 ?_)
      · funext a; apply Fin.ext
        match a with
        | ⟨0, _⟩ => show win1_0.index t (0 : Fin 2) * 5000 + 1 * r.val = win1_5.index t (0 : Fin 2) * 5000 + 1 * r.val; omega
        | ⟨1, _⟩ => show win1_0.index t (1 : Fin 2) * 64 + 1 * k.val = k.val; omega
      · funext a; apply Fin.ext
        match a with
        | ⟨0, _⟩ => show win1_1.index t (0 : Fin 2) * 5000 + 1 * r.val = win1_5.index t (0 : Fin 2) * 5000 + 1 * r.val; omega
        | ⟨1, _⟩ => show win1_1.index t (1 : Fin 2) * 64 + 1 * k.val = k.val; omega
      · funext a; apply Fin.ext
        match a with
        | ⟨0, _⟩ => show win1_2.index t (0 : Fin 2) * 1 + 1 * 0 = 0; omega
        | ⟨1, _⟩ => show win1_2.index t (1 : Fin 2) * 64 + 1 * k.val = k.val; omega
    · funext a; apply Fin.ext
      match a with
      | ⟨0, _⟩ => show win1_3.index t (0 : Fin 2) * 64 + 1 * k.val = k.val; omega
      | ⟨1, _⟩ => show win1_3.index t (1 : Fin 2) * 64 + 1 * q.val = win1_5.index t (1 : Fin 2) * 64 + 1 * q.val; omega
  · funext a; apply Fin.ext
    match a with
    | ⟨0, _⟩ => show win1_4.index t (0 : Fin 2) * 1 + 1 * 0 = 0; omega
    | ⟨1, _⟩ => show win1_4.index t (1 : Fin 2) * 64 + 1 * q.val = win1_5.index t (1 : Fin 2) * 64 + 1 * q.val; omega

variable (V : (c : Dev nD) → (b : Ref sig .tc) → Buf (Elt Ideal) ((c : Thread nD τ).loc b))

/-- What point `t` writes back is its block of rows of `layer1` of the whole arrays. -/
theorem flushed_eq (c : Dev nD) (t : Fin cfg1.N) :
    (dat1 V c).flushed 5 t = ((cfg1.win 5).blk t).view.read (Elt Ideal)
      (layer1 (n := 100000) (V c main_v4) (V c main_v14) (V c main_v15) (V c main_arg5) (V c main_v16)) := by
  show (cfg1.win 5).cut (grid1.coords t) ((dat1 V c).after 5 t) = _
  rw [after1_5]
  unfold out1_5
  rw [View.canon_unit_zero hz]
  simp only [View.ld_unit_zero (S := S5000x64) hz, View.ld_unit_zero (S := S1x64) hz, View.ld_unit_zero (S := S64x64) hz]
  rw [pay_eq]
  funext j
  obtain ⟨r, q, rfl⟩ : ∃ (r : Fin 5000) (q : Fin 64), j = ix2 r q := ⟨j 0, j 1, eq_ix2 j⟩
  exact read_block (V c main_v4) (V c main_v14) (V c main_v15) (V c main_arg5) (V c main_v16) t r q

/-- An index of the result is in point `t`'s block iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v17).slice (win1_5.rect t)).set ↔ _
  rw [View.set_slice_whole, Rect.mem_set_unit]
  exact Iff.rfl

/-- Every entry of the result is in the block of the point its row falls in. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : grid1.N = 20 := N_1
  refine ⟨⟨(i 0).val / 5000, by show (i 0).val / 5000 < grid1.N; omega⟩, flush1_5 _, ?_⟩
  rw [mem_blk]
  obtain ⟨e00, e01, e10, e11, e20, e21, e30, e31, e40, e41, e50, e51⟩ := idx_facts ⟨(i 0).val / 5000, by show (i 0).val / 5000 < grid1.N; omega⟩
  intro a
  match a with
  | ⟨0, _⟩ =>
    show win1_5.index _ (0 : Fin 2) * 5000 ≤ (i 0).val ∧ (i 0).val < win1_5.index _ (0 : Fin 2) * 5000 + 5000
    rw [e50]; show (i 0).val / 5000 * 5000 ≤ (i 0).val ∧ (i 0).val < (i 0).val / 5000 * 5000 + 5000; omega
  | ⟨1, _⟩ =>
    show win1_5.index _ (1 : Fin 2) * 64 ≤ (i 1).val ∧ (i 1).val < win1_5.index _ (1 : Fin 2) * 64 + 64
    rw [e51]; omega

/-- After the stage its result array is `layer1` of the arrays it found. -/
theorem final (c : Dev nD) :
    (dat1 V c).arrAt 5 cfg1.N = layer1 (n := 100000) (V c main_v4) (V c main_v14) (V c main_v15) (V c main_arg5) (V c main_v16) :=
  (dat1 V c).arrAt_eq_of_cover 5 _ (fun t _ => flushed_eq V c t) cover

end Cert.KernelIdeal.Stage1

end
-- ==== Proof.Stage2.lean ====
/-
  The third grid stage: the second perceptron, twenty blocks of five thousand rows.

  At grid point `t` the body reads rows `[5000 t, 5000 (t + 1))` of the hidden features `H` and of the
  neighbours' sum `A`, and the whole of `W3`, `b3`, `W4`, `b4`; it multiplies `H + A` by `W3` into a zero
  accumulator, adds `b3`, applies `relu`, multiplies by `W4` into a zero accumulator, adds `b4`, and writes
  the block of rows.  On a block this arithmetic is `layer2` of the block; `layer2` acts row by row, so the
  block written is that block of rows of `layer2` of the whole arrays; the twenty blocks tile the result.
  Everything is stated at the contents `V` the stage finds when it is entered.
-/
import proofs.«147684_j45208825757773_2_alg».proof.Proof.Gen.KernelIdeal.Frame
import proofs.«147684_j45208825757773_2_alg».proof.Proof.LibMatmul
import proofs.«147684_j45208825757773_2_alg».proof.Proof.Spec

set_option maxRecDepth 16384

noncomputable section

open scoped BigOperators

namespace Cert.KernelIdeal.Stage2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Spec

theorem hz : (![0, 0] : Fin 2 → Nat) = fun _ => 0 := funext fun a => by fin_cases a <;> rfl

namespace Inner
theorem hl0 (i : S5000x64.Idx) (q : (dot_S5000x64_S64x64_S5000x64_1_0_0_1_n_n).contr.Idx) : ((dot_S5000x64_S64x64_S5000x64_1_0_0_1_n_n).lhsIdx i q 0).val = (i 0).val := by
  unfold DotDims.lhsIdx
  rw [dif_neg (show ¬(0 : Fin S5000x64.rank) ∈ (dot_S5000x64_S64x64_S5000x64_1_0_0_1_n_n).lhsBatch by decide),
    dif_pos (show (0 : Fin S5000x64.rank) ∈ (dot_S5000x64_S64x64_S5000x64_1_0_0_1_n_n).lhsNonContracting by decide)]
  rfl
theorem hl1 (i : S5000x64.Idx) (q : (dot_S5000x64_S64x64_S5000x64_1_0_0_1_n_n).contr.Idx) : ((dot_S5000x64_S64x64_S5000x64_1_0_0_1_n_n).lhsIdx i q 1).val = (q ⟨0, by decide⟩).val :=
  (dot_S5000x64_S64x64_S5000x64_1_0_0_1_n_n).lhsIdx_val_of_single rfl i q
theorem hr0 (i : S5000x64.Idx) (q : (dot_S5000x64_S64x64_S5000x64_1_0_0_1_n_n).contr.Idx) : ((dot_S5000x64_S64x64_S5000x64_1_0_0_1_n_n).rhsIdx i q 0).val = (q ⟨0, by decide⟩).val :=
  (dot_S5000x64_S64x64_S5000x64_1_0_0_1_n_n).rhsIdx_val_of_single rfl i q
theorem hr1 (i : S5000x64.Idx) (q : (dot_S5000x64_S64x64_S5000x64_1_0_0_1_n_n).contr.Idx) : ((dot_S5000x64_S64x64_S5000x64_1_0_0_1_n_n).rhsIdx i q 1).val = (i 1).val := by
  unfold DotDims.rhsIdx
  rw [dif_neg (show ¬(1 : Fin S64x64.rank) ∈ (dot_S5000x64_S64x64_S5000x64_1_0_0_1_n_n).rhsBatch by decide),
    dif_pos (show (1 : Fin S64x64.rank) ∈ (dot_S5000x64_S64x64_S5000x64_1_0_0_1_n_n).rhsNonContracting by decide)]
  rfl
end Inner

namespace Outer
theorem hl0 (i : S5000x128.Idx) (q : (dot_S5000x64_S64x128_S5000x128_1_0_0_1_n_n).contr.Idx) : ((dot_S5000x64_S64x128_S5000x128_1_0_0_1_n_n).lhsIdx i q 0).val = (i 0).val := by
  unfold DotDims.lhsIdx
  rw [dif_neg (show ¬(0 : Fin S5000x64.rank) ∈ (dot_S5000x64_S64x128_S5000x128_1_0_0_1_n_n).lhsBatch by decide),
    dif_pos (show (0 : Fin S5000x64.rank) ∈ (dot_S5000x64_S64x128_S5000x128_1_0_0_1_n_n).lhsNonContracting by decide)]
  rfl
theorem hl1 (i : S5000x128.Idx) (q : (dot_S5000x64_S64x128_S5000x128_1_0_0_1_n_n).contr.Idx) : ((dot_S5000x64_S64x128_S5000x128_1_0_0_1_n_n).lhsIdx i q 1).val = (q ⟨0, by decide⟩).val :=
  (dot_S5000x64_S64x128_S5000x128_1_0_0_1_n_n).lhsIdx_val_of_single rfl i q
theorem hr0 (i : S5000x128.Idx) (q : (dot_S5000x64_S64x128_S5000x128_1_0_0_1_n_n).contr.Idx) : ((dot_S5000x64_S64x128_S5000x128_1_0_0_1_n_n).rhsIdx i q 0).val = (q ⟨0, by decide⟩).val :=
  (dot_S5000x64_S64x128_S5000x128_1_0_0_1_n_n).rhsIdx_val_of_single rfl i q
theorem hr1 (i : S5000x128.Idx) (q : (dot_S5000x64_S64x128_S5000x128_1_0_0_1_n_n).contr.Idx) : ((dot_S5000x64_S64x128_S5000x128_1_0_0_1_n_n).rhsIdx i q 1).val = (i 1).val := by
  unfold DotDims.rhsIdx
  rw [dif_neg (show ¬(1 : Fin S64x128.rank) ∈ (dot_S5000x64_S64x128_S5000x128_1_0_0_1_n_n).rhsBatch by decide),
    dif_pos (show (1 : Fin S64x128.rank) ∈ (dot_S5000x64_S64x128_S5000x128_1_0_0_1_n_n).rhsNonContracting by decide)]
  rfl
end Outer

/-- The body's arithmetic on a block of rows is `layer2` of the block. -/
theorem pay_eq (v0 v2 : Vec Ideal S5000x64 .f32) (v5 : Vec Ideal S64x64 .f32) (v9 : Vec Ideal S1x64 .f32)
    (v16 : Vec Ideal S64x128 .f32) (v19 : Vec Ideal S1x128 .f32) :
    k2_pay1 (F := Ideal) v0 v2 v5 v9 v16 v19 = layer2 (n := 5000) v0 v2 v5 v9 v16 v19 := by
  funext j
  obtain ⟨r, q, rfl⟩ : ∃ (r : Fin 5000) (q : Fin 128), j = ix2 r q := ⟨j 0, j 1, eq_ix2 j⟩
  unfold k2_pay1 layer2
  simp only [shapeCast_self]
  simp only [addf_apply]
  rw [Cert.PlainDot.matmul_zero_apply (dot_S5000x64_S64x128_S5000x128_1_0_0_1_n_n) none rfl rfl Outer.hl0 Outer.hl1 Outer.hr0 Outer.hr1]
  refine congrArg₂ (· + ·) (Finset.sum_congr rfl fun k _ => ?_) ?_
  · refine congrArg₂ (· * ·) ?_ rfl
    show max (matmul (F := Ideal) (dot_S5000x64_S64x64_S5000x64_1_0_0_1_n_n) none (truncf (F := Ideal) .bf16 (addf v0 v2) bitsLt_bf16_f32)
        (truncf (F := Ideal) .bf16 v5 bitsLt_bf16_f32) (constant (F := Ideal) S5000x64 .f32 0x00000000#32) (ix2 r k)
      + broadcastTo S5000x64 v9 broadcasts_S1x64_S5000x64 (ix2 r k)) z = _
    rw [Cert.PlainDot.matmul_zero_apply (dot_S5000x64_S64x64_S5000x64_1_0_0_1_n_n) none rfl rfl Inner.hl0 Inner.hl1 Inner.hr0 Inner.hr1,
      bcastRow_apply (by decide) v9 broadcasts_S1x64_S5000x64 (ix2 r k)]
    rfl
  · exact bcastRow_apply (by decide) v19 broadcasts_S1x128_S5000x128 (ix2 r q)

/-- The printed index maps over the grid: the row block of `H`, of `A` and of the result is the point's
    number, every other block index is zero. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- A block of rows of `layer2` is `layer2` of the block of rows of the row-indexed arguments. -/
theorem read_block (H A : S100000x64.Idx → EReal) (W3 : S64x64.Idx → EReal) (b3 : S1x64.Idx → EReal)
    (W4 : S64x128.Idx → EReal) (b4 : S1x128.Idx → EReal) (t : Fin cfg2.N) (r : Fin 5000) (q : Fin 128) :
    layer2 (n := 5000) (fun y => H (((cfg2.win 0).blk t).view.emb y)) (fun y => A (((cfg2.win 1).blk t).view.emb y))
        (fun y => W3 (((cfg2.win 2).blk t).view.emb y)) (fun y => b3 (((cfg2.win 3).blk t).view.emb y))
        (fun y => W4 (((cfg2.win 4).blk t).view.emb y)) (fun y => b4 (((cfg2.win 5).blk t).view.emb y)) (ix2 r q)
      = layer2 (n := 100000) H A W3 b3 W4 b4 (((cfg2.win 6).blk t).view.emb (ix2 r q)) := by
  obtain ⟨e00, e01, e10, e11, e20, e21, e30, e31, e40, e41, e50, e51, e60, e61⟩ := idx_facts t
  unfold layer2
  refine congrArg₂ (· + ·) (Finset.sum_congr rfl fun k _ => ?_) (congrArg b4 ?_)
  · refine congrArg₂ (· * ·) (congrArg₂ max ?_ rfl) (congrArg W4 ?_)
    · refine congrArg₂ (· + ·) (Finset.sum_congr rfl fun j _ => ?_) (congrArg b3 ?_)
      · refine congrArg₂ (· * ·) (congrArg₂ (· + ·) (congrArg H ?_) (congrArg A ?_)) (congrArg W3 ?_)
        · funext a; apply Fin.ext
          match a with
          | ⟨0, _⟩ => show win2_0.index t (0 : Fin 2) * 5000 + 1 * r.val = win2_6.index t (0 : Fin 2) * 5000 + 1 * r.val; omega
          | ⟨1, _⟩ => show win2_0.index t (1 : Fin 2) * 64 + 1 * j.val = j.val; omega
        · funext a; apply Fin.ext
          match a with
          | ⟨0, _⟩ => show win2_1.index t (0 : Fin 2) * 5000 + 1 * r.val = win2_6.index t (0 : Fin 2) * 5000 + 1 * r.val; omega
          | ⟨1, _⟩ => show win2_1.index t (1 : Fin 2) * 64 + 1 * j.val = j.val; omega
        · funext a; apply Fin.ext
          match a with
          | ⟨0, _⟩ => show win2_2.index t (0 : Fin 2) * 64 + 1 * j.val = j.val; omega
          | ⟨1, _⟩ => show win2_2.index t (1 : Fin 2) * 64 + 1 * k.val = k.val; omega
      · funext a; apply Fin.ext
        match a with
        | ⟨0, _⟩ => show win2_3.index t (0 : Fin 2) * 1 + 1 * 0 = 0; omega
        | ⟨1, _⟩ => show win2_3.index t (1 : Fin 2) * 64 + 1 * k.val = k.val; omega
    · funext a; apply Fin.ext
      match a with
      | ⟨0, _⟩ => show win2_4.index t (0 : Fin 2) * 64 + 1 * k.val = k.val; omega
      | ⟨1, _⟩ => show win2_4.index t (1 : Fin 2) * 128 + 1 * q.val = win2_6.index t (1 : Fin 2) * 128 + 1 * q.val; omega
  · funext a; apply Fin.ext
    match a with
    | ⟨0, _⟩ => show win2_5.index t (0 : Fin 2) * 1 + 1 * 0 = 0; omega
    | ⟨1, _⟩ => show win2_5.index t (1 : Fin 2) * 128 + 1 * q.val = win2_6.index t (1 : Fin 2) * 128 + 1 * q.val; omega

variable (V : (c : Dev nD) → (b : Ref sig .tc) → Buf (Elt Ideal) ((c : Thread nD τ).loc b))

/-- What point `t` writes back is its block of rows of `layer2` of the whole arrays. -/
theorem flushed_eq (c : Dev nD) (t : Fin cfg2.N) :
    (dat2 V c).flushed 6 t = ((cfg2.win 6).blk t).view.read (Elt Ideal)
      (layer2 (n := 100000) (V c main_v17) (V c main_v27) (V c main_arg7) (V c main_v28) (V c main_arg9) (V c main_v29)) := by
  show (cfg2.win 6).cut (grid2.coords t) ((dat2 V c).after 6 t) = _
  rw [after2_6]
  unfold out2_6
  rw [View.canon_unit_zero hz]
  simp only [View.ld_unit_zero (S := S5000x64) hz, View.ld_unit_zero (S := S1x64) hz, View.ld_unit_zero (S := S64x64) hz,
    View.ld_unit_zero (S := S64x128) hz, View.ld_unit_zero (S := S1x128) hz]
  rw [pay_eq]
  funext j
  obtain ⟨r, q, rfl⟩ : ∃ (r : Fin 5000) (q : Fin 128), j = ix2 r q := ⟨j 0, j 1, eq_ix2 j⟩
  exact read_block (V c main_v17) (V c main_v27) (V c main_arg7) (V c main_v28) (V c main_arg9) (V c main_v29) t r q

/-- An index of the result is in point `t`'s block iff each coordinate is in the block's range on its axis. -/
theorem mem_blk (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v30).slice (win2_6.rect t)).set ↔ _
  rw [View.set_slice_whole, Rect.mem_set_unit]
  exact Iff.rfl

/-- Every entry of the result is in the block of the point its row falls in. -/
theorem cover (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  have hN : grid2.N = 20 := N_2
  refine ⟨⟨(i 0).val / 5000, by show (i 0).val / 5000 < grid2.N; omega⟩, flush2_6 _, ?_⟩
  rw [mem_blk]
  obtain ⟨e00, e01, e10, e11, e20, e21, e30, e31, e40, e41, e50, e51, e60, e61⟩ := idx_facts ⟨(i 0).val / 5000, by show (i 0).val / 5000 < grid2.N; omega⟩
  intro a
  match a with
  | ⟨0, _⟩ =>
    show win2_6.index _ (0 : Fin 2) * 5000 ≤ (i 0).val ∧ (i 0).val < win2_6.index _ (0 : Fin 2) * 5000 + 5000
    rw [e60]; show (i 0).val / 5000 * 5000 ≤ (i 0).val ∧ (i 0).val < (i 0).val / 5000 * 5000 + 5000; omega
  | ⟨1, _⟩ =>
    show win2_6.index _ (1 : Fin 2) * 128 ≤ (i 1).val ∧ (i 1).val < win2_6.index _ (1 : Fin 2) * 128 + 128
    rw [e61]; omega

/-- After the stage its result array is `layer2` of the arrays it found. -/
theorem final (c : Dev nD) :
    (dat2 V c).arrAt 6 cfg2.N = layer2 (n := 100000) (V c main_v17) (V c main_v27) (V c main_arg7) (V c main_v28) (V c main_arg9) (V c main_v29) :=
  (dat2 V c).arrAt_eq_of_cover 6 _ (fun t _ => flushed_eq V c t) cover

end Cert.KernelIdeal.Stage2

end
-- ==== Proof.HostGlue.lean ====
/-
  The idealized kernel's result as a function of its arguments.

  Between the grid stages the program runs host operations; the contents of every buffer at each segment
  boundary are a fold from the launch memory.  Here that fold is read at the buffers the next segment
  needs.  The first stretch cuts the edge list into source and target row numbers.  The first stage leaves
  `Y = x · W1`.  The second stretch takes the rows of `Y` at the sources and adds them up at the targets
  (`aggOf`) and lays the biases `b1`, `b2` out as one-row matrices; the second stage leaves
  `hidden = layer1 Y (aggOf Y) b1 W2 b2`.  The third stretch does the same to `hidden`, with `b3`, `b4`; the
  third stage leaves `embed = layer2 hidden (aggOf hidden) W3 b3 W4 b4`.  The last two stretches are the
  pooling, the classifier and the normalisation: `tail`.  No segment writes an argument, so an argument
  read at any boundary is the launch array.
-/
import proofs.«147684_j45208825757773_2_alg».proof.Proof.Gen.KernelIdeal.Frame
import proofs.«147684_j45208825757773_2_alg».proof.Proof.Spec
import proofs.«147684_j45208825757773_2_alg».proof.Proof.Tail
import proofs.«147684_j45208825757773_2_alg».proof.Proof.Stage0
import proofs.«147684_j45208825757773_2_alg».proof.Proof.Stage1
import proofs.«147684_j45208825757773_2_alg».proof.Proof.Stage2
import Idealize.ShloMosaic.Lib.StableHlo.Run

set_option maxRecDepth 16384

noncomputable section

namespace Cert.KernelIdeal.HostGlue

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.StableHlo
open Idealize.ShloMosaic.Pipeline (Dat Cfg Window)
open Cert.Spec

/-- The source row numbers: row 0 of the edge list. -/
def srcOf (x1 : IVec S2x1600000 32) : IVec S1600000 32 :=
  shapeCast S1600000 (extractStridedSlice S1x1600000 ![0, 0] x1 slices_S2x1600000_S1x1600000_0_0) shapeCasts_S1x1600000_S1600000
/-- The target row numbers: row 1 of the edge list. -/
def dstOf (x1 : IVec S2x1600000 32) : IVec S1600000 32 :=
  shapeCast S1600000 (extractStridedSlice S1x1600000 ![1, 0] x1 slices_S2x1600000_S1x1600000_1_0) shapeCasts_S1x1600000_S1600000

/-- The sum, at each node, of the rows of `Y` at the sources of the edges that end there: the rows are taken by
    source (a negative source wraps around once), then added into zero by target. -/
def aggOf (Y : FVec Ideal S100000x64 .f32) (s d : IVec S1600000 32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 d)
    (Host.gather gather_S100000x64_S1600000x1_S1600000x64_1_0_n_n_0_1_164 Y
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- The hidden features after the first convolution. -/
def hidden (x0 : FVec Ideal S100000x128 .f32) (x1 : IVec S2x1600000 32) (x3 : FVec Ideal S128x64 .f32) (x4 : FVec Ideal S64 .f32)
    (x5 : FVec Ideal S64x64 .f32) (x6 : FVec Ideal S64 .f32) : FVec Ideal S100000x64 .f32 :=
  layer1 (n := 100000) (prod (n := 100000) (K := 128) (m := 64) x0 x3)
    (aggOf (prod (n := 100000) (K := 128) (m := 64) x0 x3) (srcOf x1) (dstOf x1))
    (shapeCast S1x64 x4 shapeCasts_S64_S1x64) x5 (shapeCast S1x64 x6 shapeCasts_S64_S1x64)

/-- The node embeddings after the second convolution. -/
def embed (x0 : FVec Ideal S100000x128 .f32) (x1 : IVec S2x1600000 32) (x3 : FVec Ideal S128x64 .f32) (x4 : FVec Ideal S64 .f32)
    (x5 : FVec Ideal S64x64 .f32) (x6 : FVec Ideal S64 .f32) (x7 : FVec Ideal S64x64 .f32) (x8 : FVec Ideal S64 .f32)
    (x9 : FVec Ideal S64x128 .f32) (x10 : FVec Ideal S128 .f32) : FVec Ideal S100000x128 .f32 :=
  layer2 (n := 100000) (hidden x0 x1 x3 x4 x5 x6) (aggOf (hidden x0 x1 x3 x4 x5 x6) (srcOf x1) (dstOf x1))
    x7 (shapeCast S1x64 x8 shapeCasts_S64_S1x64) x9 (shapeCast S1x128 x10 shapeCasts_S128_S1x128)

theorem layer1_congr {n : ℕ} {a a' b b' : (⟨2, ![n, 64]⟩ : Shape).Idx → EReal} {c c' e e' : (⟨2, ![1, 64]⟩ : Shape).Idx → EReal}
    {d d' : (⟨2, ![64, 64]⟩ : Shape).Idx → EReal} (ha : a = a') (hb : b = b') (hc : c = c') (hd : d = d') (he : e = e') :
    layer1 a b c d e = layer1 a' b' c' d' e' := by subst ha hb hc hd he; rfl

theorem layer2_congr {n : ℕ} {a a' b b' : (⟨2, ![n, 64]⟩ : Shape).Idx → EReal} {w w' : (⟨2, ![64, 64]⟩ : Shape).Idx → EReal}
    {c c' : (⟨2, ![1, 64]⟩ : Shape).Idx → EReal} {v v' : (⟨2, ![64, 128]⟩ : Shape).Idx → EReal} {e e' : (⟨2, ![1, 128]⟩ : Shape).Idx → EReal}
    (ha : a = a') (hb : b = b') (hw : w = w') (hc : c = c') (hv : v = v') (he : e = e') :
    layer2 a b w c v e = layer2 a' b' w' c' v' e' := by subst ha hb hw hc hv he; rfl

/-! ## One stretch of host operations at a time, from any contents -/

theorem s0_v1 (Wv : Valuation τ sig (Elt Ideal)) : StableHlo.after hostOps0 Wv (Proc.devRef .tc main_v1) = srcOf (Wv (Proc.devRef .tc main_arg1)) := by
  unfold hostOps0; after_results_simp <;> rfl
theorem s0_v3 (Wv : Valuation τ sig (Elt Ideal)) : StableHlo.after hostOps0 Wv (Proc.devRef .tc main_v3) = dstOf (Wv (Proc.devRef .tc main_arg1)) := by
  unfold hostOps0; after_results_simp <;> rfl
theorem s0_arg0 (Wv : Valuation τ sig (Elt Ideal)) : StableHlo.after hostOps0 Wv (Proc.devRef .tc main_arg0) = Wv (Proc.devRef .tc main_arg0) := by
  unfold hostOps0; after_results_simp <;> rfl
theorem s0_arg2 (Wv : Valuation τ sig (Elt Ideal)) : StableHlo.after hostOps0 Wv (Proc.devRef .tc main_arg2) = Wv (Proc.devRef .tc main_arg2) := by
  unfold hostOps0; after_results_simp <;> rfl
theorem s0_arg3 (Wv : Valuation τ sig (Elt Ideal)) : StableHlo.after hostOps0 Wv (Proc.devRef .tc main_arg3) = Wv (Proc.devRef .tc main_arg3) := by
  unfold hostOps0; after_results_simp <;> rfl
theorem s0_arg4 (Wv : Valuation τ sig (Elt Ideal)) : StableHlo.after hostOps0 Wv (Proc.devRef .tc main_arg4) = Wv (Proc.devRef .tc main_arg4) := by
  unfold hostOps0; after_results_simp <;> rfl
theorem s0_arg5 (Wv : Valuation τ sig (Elt Ideal)) : StableHlo.after hostOps0 Wv (Proc.devRef .tc main_arg5) = Wv (Proc.devRef .tc main_arg5) := by
  unfold hostOps0; after_results_simp <;> rfl
theorem s0_arg6 (Wv : Valuation τ sig (Elt Ideal)) : StableHlo.after hostOps0 Wv (Proc.devRef .tc main_arg6) = Wv (Proc.devRef .tc main_arg6) := by
  unfold hostOps0; after_results_simp <;> rfl
theorem s0_arg7 (Wv : Valuation τ sig (Elt Ideal)) : StableHlo.after hostOps0 Wv (Proc.devRef .tc main_arg7) = Wv (Proc.devRef .tc main_arg7) := by
  unfold hostOps0; after_results_simp <;> rfl
theorem s0_arg8 (Wv : Valuation τ sig (Elt Ideal)) : StableHlo.after hostOps0 Wv (Proc.devRef .tc main_arg8) = Wv (Proc.devRef .tc main_arg8) := by
  unfold hostOps0; after_results_simp <;> rfl
theorem s0_arg9 (Wv : Valuation τ sig (Elt Ideal)) : StableHlo.after hostOps0 Wv (Proc.devRef .tc main_arg9) = Wv (Proc.devRef .tc main_arg9) := by
  unfold hostOps0; after_results_simp <;> rfl
theorem s0_arg10 (Wv : Valuation τ sig (Elt Ideal)) : StableHlo.after hostOps0 Wv (Proc.devRef .tc main_arg10) = Wv (Proc.devRef .tc main_arg10) := by
  unfold hostOps0; after_results_simp <;> rfl
theorem s0_arg11 (Wv : Valuation τ sig (Elt Ideal)) : StableHlo.after hostOps0 Wv (Proc.devRef .tc main_arg11) = Wv (Proc.devRef .tc main_arg11) := by
  unfold hostOps0; after_results_simp <;> rfl
theorem s0_arg12 (Wv : Valuation τ sig (Elt Ideal)) : StableHlo.after hostOps0 Wv (Proc.devRef .tc main_arg12) = Wv (Proc.devRef .tc main_arg12) := by
  unfold hostOps0; after_results_simp <;> rfl

theorem s1_v14 (Wv : Valuation τ sig (Elt Ideal)) : StableHlo.after hostOps1 Wv (Proc.devRef .tc main_v14)
    = aggOf (Wv (Proc.devRef .tc main_v4)) (Wv (Proc.devRef .tc main_v1)) (Wv (Proc.devRef .tc main_v3)) := by
  unfold hostOps1; after_results_simp <;> rfl
theorem s1_v15 (Wv : Valuation τ sig (Elt Ideal)) : StableHlo.after hostOps1 Wv (Proc.devRef .tc main_v15) = shapeCast S1x64 (Wv (Proc.devRef .tc main_arg4)) shapeCasts_S64_S1x64 := by
  unfold hostOps1; after_results_simp <;> rfl
theorem s1_v16 (Wv : Valuation τ sig (Elt Ideal)) : StableHlo.after hostOps1 Wv (Proc.devRef .tc main_v16) = shapeCast S1x64 (Wv (Proc.devRef .tc main_arg6)) shapeCasts_S64_S1x64 := by
  unfold hostOps1; after_results_simp <;> rfl
theorem s1_v4 (Wv : Valuation τ sig (Elt Ideal)) : StableHlo.after hostOps1 Wv (Proc.devRef .tc main_v4) = Wv (Proc.devRef .tc main_v4) := by
  unfold hostOps1; after_results_simp <;> rfl
theorem s1_v1 (Wv : Valuation τ sig (Elt Ideal)) : StableHlo.after hostOps1 Wv (Proc.devRef .tc main_v1) = Wv (Proc.devRef .tc main_v1) := by
  unfold hostOps1; after_results_simp <;> rfl
theorem s1_v3 (Wv : Valuation τ sig (Elt Ideal)) : StableHlo.after hostOps1 Wv (Proc.devRef .tc main_v3) = Wv (Proc.devRef .tc main_v3) := by
  unfold hostOps1; after_results_simp <;> rfl
theorem s1_arg2 (Wv : Valuation τ sig (Elt Ideal)) : StableHlo.after hostOps1 Wv (Proc.devRef .tc main_arg2) = Wv (Proc.devRef .tc main_arg2) := by
  unfold hostOps1; after_results_simp <;> rfl
theorem s1_arg5 (Wv : Valuation τ sig (Elt Ideal)) : StableHlo.after hostOps1 Wv (Proc.devRef .tc main_arg5) = Wv (Proc.devRef .tc main_arg5) := by
  unfold hostOps1; after_results_simp <;> rfl
theorem s1_arg7 (Wv : Valuation τ sig (Elt Ideal)) : StableHlo.after hostOps1 Wv (Proc.devRef .tc main_arg7) = Wv (Proc.devRef .tc main_arg7) := by
  unfold hostOps1; after_results_simp <;> rfl
theorem s1_arg8 (Wv : Valuation τ sig (Elt Ideal)) : StableHlo.after hostOps1 Wv (Proc.devRef .tc main_arg8) = Wv (Proc.devRef .tc main_arg8) := by
  unfold hostOps1; after_results_simp <;> rfl
theorem s1_arg9 (Wv : Valuation τ sig (Elt Ideal)) : StableHlo.after hostOps1 Wv (Proc.devRef .tc main_arg9) = Wv (Proc.devRef .tc main_arg9) := by
  unfold hostOps1; after_results_simp <;> rfl
theorem s1_arg10 (Wv : Valuation τ sig (Elt Ideal)) : StableHlo.after hostOps1 Wv (Proc.devRef .tc main_arg10) = Wv (Proc.devRef .tc main_arg10) := by
  unfold hostOps1; after_results_simp <;> rfl
theorem s1_arg11 (Wv : Valuation τ sig (Elt Ideal)) : StableHlo.after hostOps1 Wv (Proc.devRef .tc main_arg11) = Wv (Proc.devRef .tc main_arg11) := by
  unfold hostOps1; after_results_simp <;> rfl
theorem s1_arg12 (Wv : Valuation τ sig (Elt Ideal)) : StableHlo.after hostOps1 Wv (Proc.devRef .tc main_arg12) = Wv (Proc.devRef .tc main_arg12) := by
  unfold hostOps1; after_results_simp <;> rfl

theorem s2_v27 (Wv : Valuation τ sig (Elt Ideal)) : StableHlo.after hostOps2 Wv (Proc.devRef .tc main_v27)
    = aggOf (Wv (Proc.devRef .tc main_v17)) (Wv (Proc.devRef .tc main_v1)) (Wv (Proc.devRef .tc main_v3)) := by
  unfold hostOps2; after_results_simp <;> rfl
theorem s2_v28 (Wv : Valuation τ sig (Elt Ideal)) : StableHlo.after hostOps2 Wv (Proc.devRef .tc main_v28) = shapeCast S1x64 (Wv (Proc.devRef .tc main_arg8)) shapeCasts_S64_S1x64 := by
  unfold hostOps2; after_results_simp <;> rfl
theorem s2_v29 (Wv : Valuation τ sig (Elt Ideal)) : StableHlo.after hostOps2 Wv (Proc.devRef .tc main_v29) = shapeCast S1x128 (Wv (Proc.devRef .tc main_arg10)) shapeCasts_S128_S1x128 := by
  unfold hostOps2; after_results_simp <;> rfl
theorem s2_v17 (Wv : Valuation τ sig (Elt Ideal)) : StableHlo.after hostOps2 Wv (Proc.devRef .tc main_v17) = Wv (Proc.devRef .tc main_v17) := by
  unfold hostOps2; after_results_simp <;> rfl
theorem s2_arg2 (Wv : Valuation τ sig (Elt Ideal)) : StableHlo.after hostOps2 Wv (Proc.devRef .tc main_arg2) = Wv (Proc.devRef .tc main_arg2) := by
  unfold hostOps2; after_results_simp <;> rfl
theorem s2_arg7 (Wv : Valuation τ sig (Elt Ideal)) : StableHlo.after hostOps2 Wv (Proc.devRef .tc main_arg7) = Wv (Proc.devRef .tc main_arg7) := by
  unfold hostOps2; after_results_simp <;> rfl
theorem s2_arg9 (Wv : Valuation τ sig (Elt Ideal)) : StableHlo.after hostOps2 Wv (Proc.devRef .tc main_arg9) = Wv (Proc.devRef .tc main_arg9) := by
  unfold hostOps2; after_results_simp <;> rfl
theorem s2_arg11 (Wv : Valuation τ sig (Elt Ideal)) : StableHlo.after hostOps2 Wv (Proc.devRef .tc main_arg11) = Wv (Proc.devRef .tc main_arg11) := by
  unfold hostOps2; after_results_simp <;> rfl
theorem s2_arg12 (Wv : Valuation τ sig (Elt Ideal)) : StableHlo.after hostOps2 Wv (Proc.devRef .tc main_arg12) = Wv (Proc.devRef .tc main_arg12) := by
  unfold hostOps2; after_results_simp <;> rfl

/-- The last two stretches are `tail` of the node embeddings they find. -/
theorem s3_v47 (Wv : Valuation τ sig (Elt Ideal)) : StableHlo.after hostOps3_1 (StableHlo.after hostOps3 Wv) (Proc.devRef .tc main_v47)
    = Cert.Tail.tail (F := Ideal) (Wv (Proc.devRef .tc main_v30)) (Wv (Proc.devRef .tc main_arg2)) (Wv (Proc.devRef .tc main_arg11)) (Wv (Proc.devRef .tc main_arg12)) := by
  unfold hostOps3_1 hostOps3; after_results_simp <;> rfl

/-! ## The boundaries of the run, from the launch memory -/

variable (m : (ℓ : Loc nD τ sig) → Buf (Elt Ideal) ℓ) (ρ : Dev nD → PrngReg) (c : Dev nD)

/-! ### After the first stretch -/
theorem w1_arg0 : W1 m ρ c (Proc.devRef .tc main_arg0) = (m ((c : Thread nD τ).loc main_arg0)) := s0_arg0 (W0 m ρ c)
theorem w1_arg2 : W1 m ρ c (Proc.devRef .tc main_arg2) = (m ((c : Thread nD τ).loc main_arg2)) := s0_arg2 (W0 m ρ c)
theorem w1_arg3 : W1 m ρ c (Proc.devRef .tc main_arg3) = (m ((c : Thread nD τ).loc main_arg3)) := s0_arg3 (W0 m ρ c)
theorem w1_arg4 : W1 m ρ c (Proc.devRef .tc main_arg4) = (m ((c : Thread nD τ).loc main_arg4)) := s0_arg4 (W0 m ρ c)
theorem w1_arg5 : W1 m ρ c (Proc.devRef .tc main_arg5) = (m ((c : Thread nD τ).loc main_arg5)) := s0_arg5 (W0 m ρ c)
theorem w1_arg6 : W1 m ρ c (Proc.devRef .tc main_arg6) = (m ((c : Thread nD τ).loc main_arg6)) := s0_arg6 (W0 m ρ c)
theorem w1_arg7 : W1 m ρ c (Proc.devRef .tc main_arg7) = (m ((c : Thread nD τ).loc main_arg7)) := s0_arg7 (W0 m ρ c)
theorem w1_arg8 : W1 m ρ c (Proc.devRef .tc main_arg8) = (m ((c : Thread nD τ).loc main_arg8)) := s0_arg8 (W0 m ρ c)
theorem w1_arg9 : W1 m ρ c (Proc.devRef .tc main_arg9) = (m ((c : Thread nD τ).loc main_arg9)) := s0_arg9 (W0 m ρ c)
theorem w1_arg10 : W1 m ρ c (Proc.devRef .tc main_arg10) = (m ((c : Thread nD τ).loc main_arg10)) := s0_arg10 (W0 m ρ c)
theorem w1_arg11 : W1 m ρ c (Proc.devRef .tc main_arg11) = (m ((c : Thread nD τ).loc main_arg11)) := s0_arg11 (W0 m ρ c)
theorem w1_arg12 : W1 m ρ c (Proc.devRef .tc main_arg12) = (m ((c : Thread nD τ).loc main_arg12)) := s0_arg12 (W0 m ρ c)
theorem w1_v1 : W1 m ρ c (Proc.devRef .tc main_v1) = srcOf (m ((c : Thread nD τ).loc main_arg1)) := s0_v1 (W0 m ρ c)
theorem w1_v3 : W1 m ρ c (Proc.devRef .tc main_v3) = dstOf (m ((c : Thread nD τ).loc main_arg1)) := s0_v3 (W0 m ρ c)

/-! ### After the first stage -/
theorem w2_arg2 : W2 m ρ c (Proc.devRef .tc main_arg2) = (m ((c : Thread nD τ).loc main_arg2)) := (W2_of_ne m ρ c main_arg2 (by decide)).trans (w1_arg2 m ρ c)
theorem w2_arg4 : W2 m ρ c (Proc.devRef .tc main_arg4) = (m ((c : Thread nD τ).loc main_arg4)) := (W2_of_ne m ρ c main_arg4 (by decide)).trans (w1_arg4 m ρ c)
theorem w2_arg5 : W2 m ρ c (Proc.devRef .tc main_arg5) = (m ((c : Thread nD τ).loc main_arg5)) := (W2_of_ne m ρ c main_arg5 (by decide)).trans (w1_arg5 m ρ c)
theorem w2_arg6 : W2 m ρ c (Proc.devRef .tc main_arg6) = (m ((c : Thread nD τ).loc main_arg6)) := (W2_of_ne m ρ c main_arg6 (by decide)).trans (w1_arg6 m ρ c)
theorem w2_arg7 : W2 m ρ c (Proc.devRef .tc main_arg7) = (m ((c : Thread nD τ).loc main_arg7)) := (W2_of_ne m ρ c main_arg7 (by decide)).trans (w1_arg7 m ρ c)
theorem w2_arg8 : W2 m ρ c (Proc.devRef .tc main_arg8) = (m ((c : Thread nD τ).loc main_arg8)) := (W2_of_ne m ρ c main_arg8 (by decide)).trans (w1_arg8 m ρ c)
theorem w2_arg9 : W2 m ρ c (Proc.devRef .tc main_arg9) = (m ((c : Thread nD τ).loc main_arg9)) := (W2_of_ne m ρ c main_arg9 (by decide)).trans (w1_arg9 m ρ c)
theorem w2_arg10 : W2 m ρ c (Proc.devRef .tc main_arg10) = (m ((c : Thread nD τ).loc main_arg10)) := (W2_of_ne m ρ c main_arg10 (by decide)).trans (w1_arg10 m ρ c)
theorem w2_arg11 : W2 m ρ c (Proc.devRef .tc main_arg11) = (m ((c : Thread nD τ).loc main_arg11)) := (W2_of_ne m ρ c main_arg11 (by decide)).trans (w1_arg11 m ρ c)
theorem w2_arg12 : W2 m ρ c (Proc.devRef .tc main_arg12) = (m ((c : Thread nD τ).loc main_arg12)) := (W2_of_ne m ρ c main_arg12 (by decide)).trans (w1_arg12 m ρ c)
theorem w2_v1 : W2 m ρ c (Proc.devRef .tc main_v1) = srcOf (m ((c : Thread nD τ).loc main_arg1)) := (W2_of_ne m ρ c main_v1 (by decide)).trans (w1_v1 m ρ c)
theorem w2_v3 : W2 m ρ c (Proc.devRef .tc main_v3) = dstOf (m ((c : Thread nD τ).loc main_arg1)) := (W2_of_ne m ρ c main_v3 (by decide)).trans (w1_v3 m ρ c)
theorem w2_v4 : W2 m ρ c (Proc.devRef .tc main_v4) = prod (n := 100000) (K := 128) (m := 64) (m ((c : Thread nD τ).loc main_arg0)) (m ((c : Thread nD τ).loc main_arg3)) :=
  (W2_arr m ρ c 2).trans ((Stage0.final (V1 m ρ) c).trans (congrArg₂ (prod (n := 100000) (K := 128) (m := 64)) (w1_arg0 m ρ c) (w1_arg3 m ρ c)))

/-! ### After the second stretch -/
theorem w3_arg2 : W3 m ρ c (Proc.devRef .tc main_arg2) = (m ((c : Thread nD τ).loc main_arg2)) := (s1_arg2 (W2 m ρ c)).trans (w2_arg2 m ρ c)
theorem w3_arg5 : W3 m ρ c (Proc.devRef .tc main_arg5) = (m ((c : Thread nD τ).loc main_arg5)) := (s1_arg5 (W2 m ρ c)).trans (w2_arg5 m ρ c)
theorem w3_arg7 : W3 m ρ c (Proc.devRef .tc main_arg7) = (m ((c : Thread nD τ).loc main_arg7)) := (s1_arg7 (W2 m ρ c)).trans (w2_arg7 m ρ c)
theorem w3_arg8 : W3 m ρ c (Proc.devRef .tc main_arg8) = (m ((c : Thread nD τ).loc main_arg8)) := (s1_arg8 (W2 m ρ c)).trans (w2_arg8 m ρ c)
theorem w3_arg9 : W3 m ρ c (Proc.devRef .tc main_arg9) = (m ((c : Thread nD τ).loc main_arg9)) := (s1_arg9 (W2 m ρ c)).trans (w2_arg9 m ρ c)
theorem w3_arg10 : W3 m ρ c (Proc.devRef .tc main_arg10) = (m ((c : Thread nD τ).loc main_arg10)) := (s1_arg10 (W2 m ρ c)).trans (w2_arg10 m ρ c)
theorem w3_arg11 : W3 m ρ c (Proc.devRef .tc main_arg11) = (m ((c : Thread nD τ).loc main_arg11)) := (s1_arg11 (W2 m ρ c)).trans (w2_arg11 m ρ c)
theorem w3_arg12 : W3 m ρ c (Proc.devRef .tc main_arg12) = (m ((c : Thread nD τ).loc main_arg12)) := (s1_arg12 (W2 m ρ c)).trans (w2_arg12 m ρ c)
theorem w3_v1 : W3 m ρ c (Proc.devRef .tc main_v1) = srcOf (m ((c : Thread nD τ).loc main_arg1)) := (s1_v1 (W2 m ρ c)).trans (w2_v1 m ρ c)
theorem w3_v3 : W3 m ρ c (Proc.devRef .tc main_v3) = dstOf (m ((c : Thread nD τ).loc main_arg1)) := (s1_v3 (W2 m ρ c)).trans (w2_v3 m ρ c)
theorem w3_v4 : W3 m ρ c (Proc.devRef .tc main_v4) = prod (n := 100000) (K := 128) (m := 64) (m ((c : Thread nD τ).loc main_arg0)) (m ((c : Thread nD τ).loc main_arg3)) := (s1_v4 (W2 m ρ c)).trans (w2_v4 m ρ c)
theorem w3_v14 : W3 m ρ c (Proc.devRef .tc main_v14)
    = aggOf (prod (n := 100000) (K := 128) (m := 64) (m ((c : Thread nD τ).loc main_arg0)) (m ((c : Thread nD τ).loc main_arg3))) (srcOf (m ((c : Thread nD τ).loc main_arg1))) (dstOf (m ((c : Thread nD τ).loc main_arg1))) :=
  (s1_v14 (W2 m ρ c)).trans (by rw [w2_v4 m ρ c, w2_v1 m ρ c, w2_v3 m ρ c])
theorem w3_v15 : W3 m ρ c (Proc.devRef .tc main_v15) = shapeCast S1x64 (m ((c : Thread nD τ).loc main_arg4)) shapeCasts_S64_S1x64 :=
  (s1_v15 (W2 m ρ c)).trans (by rw [w2_arg4 m ρ c])
theorem w3_v16 : W3 m ρ c (Proc.devRef .tc main_v16) = shapeCast S1x64 (m ((c : Thread nD τ).loc main_arg6)) shapeCasts_S64_S1x64 :=
  (s1_v16 (W2 m ρ c)).trans (by rw [w2_arg6 m ρ c])

/-! ### After the second stage -/
theorem w4_arg2 : W4 m ρ c (Proc.devRef .tc main_arg2) = (m ((c : Thread nD τ).loc main_arg2)) := (W4_of_ne m ρ c main_arg2 (by decide)).trans (w3_arg2 m ρ c)
theorem w4_arg7 : W4 m ρ c (Proc.devRef .tc main_arg7) = (m ((c : Thread nD τ).loc main_arg7)) := (W4_of_ne m ρ c main_arg7 (by decide)).trans (w3_arg7 m ρ c)
theorem w4_arg8 : W4 m ρ c (Proc.devRef .tc main_arg8) = (m ((c : Thread nD τ).loc main_arg8)) := (W4_of_ne m ρ c main_arg8 (by decide)).trans (w3_arg8 m ρ c)
theorem w4_arg9 : W4 m ρ c (Proc.devRef .tc main_arg9) = (m ((c : Thread nD τ).loc main_arg9)) := (W4_of_ne m ρ c main_arg9 (by decide)).trans (w3_arg9 m ρ c)
theorem w4_arg10 : W4 m ρ c (Proc.devRef .tc main_arg10) = (m ((c : Thread nD τ).loc main_arg10)) := (W4_of_ne m ρ c main_arg10 (by decide)).trans (w3_arg10 m ρ c)
theorem w4_arg11 : W4 m ρ c (Proc.devRef .tc main_arg11) = (m ((c : Thread nD τ).loc main_arg11)) := (W4_of_ne m ρ c main_arg11 (by decide)).trans (w3_arg11 m ρ c)
theorem w4_arg12 : W4 m ρ c (Proc.devRef .tc main_arg12) = (m ((c : Thread nD τ).loc main_arg12)) := (W4_of_ne m ρ c main_arg12 (by decide)).trans (w3_arg12 m ρ c)
theorem w4_v1 : W4 m ρ c (Proc.devRef .tc main_v1) = srcOf (m ((c : Thread nD τ).loc main_arg1)) := (W4_of_ne m ρ c main_v1 (by decide)).trans (w3_v1 m ρ c)
theorem w4_v3 : W4 m ρ c (Proc.devRef .tc main_v3) = dstOf (m ((c : Thread nD τ).loc main_arg1)) := (W4_of_ne m ρ c main_v3 (by decide)).trans (w3_v3 m ρ c)
theorem w4_v17 : W4 m ρ c (Proc.devRef .tc main_v17) = hidden (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W4_arr m ρ c 5).trans ((Stage1.final (V3 m ρ) c).trans
    (layer1_congr (w3_v4 m ρ c) (w3_v14 m ρ c) (w3_v15 m ρ c) (w3_arg5 m ρ c) (w3_v16 m ρ c)))

/-! ### After the third stretch -/
theorem w5_arg2 : W5 m ρ c (Proc.devRef .tc main_arg2) = (m ((c : Thread nD τ).loc main_arg2)) := (s2_arg2 (W4 m ρ c)).trans (w4_arg2 m ρ c)
theorem w5_arg7 : W5 m ρ c (Proc.devRef .tc main_arg7) = (m ((c : Thread nD τ).loc main_arg7)) := (s2_arg7 (W4 m ρ c)).trans (w4_arg7 m ρ c)
theorem w5_arg9 : W5 m ρ c (Proc.devRef .tc main_arg9) = (m ((c : Thread nD τ).loc main_arg9)) := (s2_arg9 (W4 m ρ c)).trans (w4_arg9 m ρ c)
theorem w5_arg11 : W5 m ρ c (Proc.devRef .tc main_arg11) = (m ((c : Thread nD τ).loc main_arg11)) := (s2_arg11 (W4 m ρ c)).trans (w4_arg11 m ρ c)
theorem w5_arg12 : W5 m ρ c (Proc.devRef .tc main_arg12) = (m ((c : Thread nD τ).loc main_arg12)) := (s2_arg12 (W4 m ρ c)).trans (w4_arg12 m ρ c)
theorem w5_v17 : W5 m ρ c (Proc.devRef .tc main_v17) = hidden (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := (s2_v17 (W4 m ρ c)).trans (w4_v17 m ρ c)
theorem w5_v27 : W5 m ρ c (Proc.devRef .tc main_v27)
    = aggOf (hidden (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (srcOf (m ((c : Thread nD τ).loc main_arg1))) (dstOf (m ((c : Thread nD τ).loc main_arg1))) :=
  (s2_v27 (W4 m ρ c)).trans (by rw [w4_v17 m ρ c, w4_v1 m ρ c, w4_v3 m ρ c])
theorem w5_v28 : W5 m ρ c (Proc.devRef .tc main_v28) = shapeCast S1x64 (m ((c : Thread nD τ).loc main_arg8)) shapeCasts_S64_S1x64 :=
  (s2_v28 (W4 m ρ c)).trans (by rw [w4_arg8 m ρ c])
theorem w5_v29 : W5 m ρ c (Proc.devRef .tc main_v29) = shapeCast S1x128 (m ((c : Thread nD τ).loc main_arg10)) shapeCasts_S128_S1x128 :=
  (s2_v29 (W4 m ρ c)).trans (by rw [w4_arg10 m ρ c])

/-! ### After the third stage -/
theorem w6_arg2 : W6 m ρ c (Proc.devRef .tc main_arg2) = (m ((c : Thread nD τ).loc main_arg2)) := (W6_of_ne m ρ c main_arg2 (by decide)).trans (w5_arg2 m ρ c)
theorem w6_arg11 : W6 m ρ c (Proc.devRef .tc main_arg11) = (m ((c : Thread nD τ).loc main_arg11)) := (W6_of_ne m ρ c main_arg11 (by decide)).trans (w5_arg11 m ρ c)
theorem w6_arg12 : W6 m ρ c (Proc.devRef .tc main_arg12) = (m ((c : Thread nD τ).loc main_arg12)) := (W6_of_ne m ρ c main_arg12 (by decide)).trans (w5_arg12 m ρ c)
theorem w6_v30 : W6 m ρ c (Proc.devRef .tc main_v30)
    = embed (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W6_arr m ρ c 6).trans ((Stage2.final (V5 m ρ) c).trans
    (layer2_congr (w5_v17 m ρ c) (w5_v27 m ρ c) (w5_arg7 m ρ c) (w5_v28 m ρ c) (w5_arg9 m ρ c) (w5_v29 m ρ c)))

/-- The result buffer at the end of the run: `tail` of the node embeddings. -/
theorem result_eq : W8 m ρ c (Proc.devRef .tc main_v47)
    = Cert.Tail.tail (F := Ideal) (embed (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))
        (m ((c : Thread nD τ).loc main_arg2)) (m ((c : Thread nD τ).loc main_arg11)) (m ((c : Thread nD τ).loc main_arg12)) :=
  (s3_v47 (W6 m ρ c)).trans (by rw [w6_v30 m ρ c, w6_arg2 m ρ c, w6_arg11 m ρ c, w6_arg12 m ρ c])

end Cert.KernelIdeal.HostGlue

end
-- ==== Proof.LibRowsByIndex.lean ====
/-
  Rows taken and rows added by an array of row numbers, read at an index.

  A gather that takes whole rows of an `N × C` matrix (or entries of an `N` vector) by an `E × 1` array of row
  numbers reads, at row `e`, the row whose number is entry `e` of the array, read as a signed integer and
  clamped into `[0, N − 1]`.  A scatter that adds the rows of an `E × C` matrix into an `N × C` matrix by
  such an array sends row `e` to the row whose number is entry `e`, read signed and NOT clamped: a row whose
  number is out of range is dropped.  So an update that lands on row `p` has a row number that is `p` as an
  integer, and in particular is not negative.

  At exact values the scatter-add is, at each entry, the entry plus the sum of the updates that land
  there.  A factor that is finite and not negative may be moved across that sum; this is what lets a per-row
  scale be applied either to every update that lands on the row or once to the row's sum.
-/
import Idealize.ShloMosaic.Lib.ValueIdx
import Idealize.ShloMosaic.PureOps.Ideal.Laws

noncomputable section

open scoped BigOperators

namespace Cert.RowsByIndex

open Idealize.ShloMosaic Idealize.ShloMosaic.ValueIdx

variable {α : Type}

/-- The row a start index names in a gather: the word read as a signed integer, clamped into `[0, N − 1]`. -/
def clampRow (N : ℕ) (hN : 0 < N) {w : ℕ} (b : BitVec w) : Fin N := ⟨min b.toInt.toNat (N - 1), by omega⟩

/-- A word whose signed reading is the row number `p` names row `p`. -/
theorem clampRow_of_toInt {N : ℕ} (hN : 0 < N) {w : ℕ} (b : BitVec w) (p : Fin N) (h : b.toInt = (p.val : ℤ)) :
    clampRow N hN b = p := by
  refine Fin.ext ?_
  show min b.toInt.toNat (N - 1) = p.val
  have := p.isLt
  rw [h]; simp only [Int.toNat_natCast]; omega

/-- A row number that is not negative is left alone by the wrap-around of negative row numbers
    (`select (x < 0) (x + N) x`). -/
theorem keep_nonneg (x y : BitVec 32) (h : 0 ≤ x.toInt) : Scalar.select (IntOp.cmpi .slt x 0#32) y x = x := by
  unfold Scalar.select IntOp.cmpi
  have hs : x.slt 0#32 = false := by
    rw [BitVec.slt_eq_decide]
    simpa using h
  simp [hs]

/-! ## Whole rows of a matrix taken by row numbers -/

/-- The dimension numbers of `x[idx]` for a matrix `x : [N, C]` and row numbers `idx : [E, 1]`. -/
abbrev rowsDims (N E C : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry `(e, c)` of the rows taken is entry `c` of the row that entry `e` of the row numbers names. -/
theorem gather_rows_apply {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsDims N E C wf) x idx (ix2 e c) = x (ix2 (clampRow N hN (idx (ix2 e (0 : Fin 1)))) c) := by
  unfold Host.gather
  congr 1
  funext a
  refine Fin.ext ?_
  match a with
  | ⟨0, _⟩ =>
    show (rowsDims N E C wf).start (ix2 e c) idx 0 + (rowsDims N E C wf).batchCoord (ix2 e c) 0
      + (rowsDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e c) ⟨List.idxOf (0 : Fin 2) (rowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N E C wf).start (ix2 e c) idx 1 + (rowsDims N E C wf).batchCoord (ix2 e c) 1
      + (rowsDims N E C wf).offCoord (ix2 e c) 1 = c.val
    rw [GatherDims.batchCoord_eq_zero _ _ _ List.not_mem_nil]
    have hs : (rowsDims N E C wf).start (ix2 e c) idx 1 = 0 := by
      unfold GatherDims.start
      rw [dif_neg (show ¬ (1 : Fin 2) ∈ (rowsDims N E C wf).startIndexMap from (by decide : (1 : Fin 2) ∉ ([0] : List (Fin 2))))]
    rw [hs]
    unfold GatherDims.offCoord
    rw [dif_pos ((GatherDims.mem_sKept _ _).mpr ⟨(by decide : (1 : Fin 2) ∉ ([0] : List (Fin 2))), List.not_mem_nil⟩)]
    simp only [Nat.zero_add]
    rfl

/-! ## Entries of a vector taken by row numbers -/

/-- The dimension numbers of `x[idx]` for a vector `x : [N]` and row numbers `idx : [E, 1]`. -/
abbrev entriesDims (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the entries taken is the vector's entry that entry `e` of the row numbers names. -/
theorem gather_entries_apply {N E w : ℕ} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entriesDims N E wf) x idx (ix1 e) = x (ix1 (clampRow N hN (idx (ix2 e (0 : Fin 1))))) := by
  unfold Host.gather
  congr 1
  funext a
  obtain rfl : a = 0 := Subsingleton.elim _ _
  refine Fin.ext ?_
  show (entriesDims N E wf).start (ix1 e) idx 0 + (entriesDims N E wf).batchCoord (ix1 e) 0
    + (entriesDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N E wf).startIndexMap from List.mem_singleton.mpr rfl)]
  have hsi : (entriesDims N E wf).siIdx (ix1 e) ⟨List.idxOf (0 : Fin 1) (entriesDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Rows added into a matrix by row numbers -/

/-- The dimension numbers of `x.at[idx].add(u)` for `x : [N, C]`, row numbers `idx : [E, 1]`, rows `u : [E, C]`. -/
abbrev addRowsDims (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The window of update `(e, c)` starts, along the rows, at the signed reading of entry `e` of the row numbers. -/
theorem addRows_start {N E C w : ℕ} (wf : ScatterDims.WF ⟨2, ![N, C]⟩ ⟨2, ![E, 1]⟩ ⟨2, ![E, C]⟩ [1] [0] [0] 1)
    (idx : IVec ⟨2, ![E, 1]⟩ w) (e : Fin E) (c : Fin C) :
    (addRowsDims N E C wf).start (ix2 e c) idx 0 = (idx (ix2 e (0 : Fin 1))).toInt := by
  unfold ScatterDims.start
  rw [dif_pos (show (0 : Fin 2) ∈ (addRowsDims N E C wf).scatterDimsToOperandDims from List.mem_singleton.mpr rfl)]
  have hsi : (addRowsDims N E C wf).siIdx (ix2 e c) ⟨List.idxOf (0 : Fin 2) (addRowsDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Along the rows an update has no window coordinate: the row axis is inserted. -/
theorem addRows_window {N E C : ℕ} (wf : ScatterDims.WF ⟨2, ![N, C]⟩ ⟨2, ![E, 1]⟩ ⟨2, ![E, C]⟩ [1] [0] [0] 1)
    (e : Fin E) (c : Fin C) : (addRowsDims N E C wf).window (ix2 e c) 0 = 0 := by
  unfold ScatterDims.window
  rw [dif_neg (show ¬ (0 : Fin 2) ∈ (addRowsDims N E C wf).sKept from
    (by decide : (0 : Fin 2) ∉ (List.finRange 2).filter (· ∉ ([0] : List (Fin 2)))))]

/-- An update that lands on row `i 0` has, as its row number read signed, exactly `i 0`. -/
theorem addRows_lands {N E C w : ℕ} (wf : ScatterDims.WF ⟨2, ![N, C]⟩ ⟨2, ![E, 1]⟩ ⟨2, ![E, C]⟩ [1] [0] [0] 1)
    (idx : IVec ⟨2, ![E, 1]⟩ w) (e : Fin E) (c : Fin C) (i : (⟨2, ![N, C]⟩ : Shape).Idx)
    (h : (addRowsDims N E C wf).resultIdx? (ix2 e c) idx = some i) :
    (idx (ix2 e (0 : Fin 1))).toInt = ((i 0).val : ℤ) := by
  unfold ScatterDims.resultIdx? at h
  split at h
  · rename_i hall
    have h0 := hall 0
    have hv : ((addRowsDims N E C wf).start (ix2 e c) idx 0 + ((addRowsDims N E C wf).window (ix2 e c) 0 : ℤ)).toNat = (i 0).val :=
      congrArg Fin.val (congrFun (Option.some.inj h) 0)
    rw [addRows_start, addRows_window] at hv h0
    simp only [Nat.cast_zero, add_zero] at hv h0
    omega
  · exact absurd h (by simp)

/-! ## A finite, non-negative factor across a sum of extended reals -/

/-- A factor that is not negative and not `+∞` distributes over a finite sum of extended reals. -/
theorem sum_mul_of_nonneg_ne_top {ι : Type*} (s : Finset ι) (f : ι → EReal) {D : EReal} (h0 : 0 ≤ D) (ht : D ≠ ⊤) :
    (∑ j ∈ s, f j) * D = ∑ j ∈ s, f j * D := by
  classical
  induction s using Finset.induction_on with
  | empty => simp
  | insert a s ha ih =>
    rw [Finset.sum_insert ha, Finset.sum_insert ha, EReal.right_distrib_of_nonneg_of_ne_top h0 ht, ih]

/-- Scatter-adding into zero and then scaling an entry by a finite non-negative factor is scatter-adding, into
    zero, updates each of which carries that factor whenever it lands on the entry. -/
theorem scatterAdd_mul_right {s si su : Shape} {φ : FTy} (d : ScatterDims s si su) {w : ℕ} (idx : IVec si w)
    (u v : su.Idx → EReal) (z z' : s.Idx → EReal) (i : s.Idx) (hz : z i = 0) (hz' : z' i = 0)
    {D : EReal} (h0 : 0 ≤ D) (ht : D ≠ ⊤)
    (huv : ∀ j, d.resultIdx? j idx = some i → v j = u j * D) :
    Host.scatterAdd (F := Ideal) (φ := φ) d z idx u i * D = Host.scatterAdd (F := Ideal) (φ := φ) d z' idx v i := by
  show Ideal.hostScatterAdd d z idx u i * D = Ideal.hostScatterAdd d z' idx v i
  unfold Ideal.hostScatterAdd
  rw [hz, hz', zero_add, zero_add, sum_mul_of_nonneg_ne_top _ _ h0 ht]
  exact Finset.sum_congr rfl fun j hj => (huv j (Finset.mem_filter.mp hj).2).symm

/-- Scatter-adding, into equal entries, updates that agree wherever they land on the entry gives equal entries. -/
theorem scatterAdd_congr {s si su : Shape} {φ : FTy} (d : ScatterDims s si su) {w : ℕ} (idx : IVec si w)
    (u v : su.Idx → EReal) (z z' : s.Idx → EReal) (i : s.Idx) (hz : z i = z' i)
    (huv : ∀ j, d.resultIdx? j idx = some i → u j = v j) :
    Host.scatterAdd (F := Ideal) (φ := φ) d z idx u i = Host.scatterAdd (F := Ideal) (φ := φ) d z' idx v i := by
  show Ideal.hostScatterAdd d z idx u i = Ideal.hostScatterAdd d z' idx v i
  unfold Ideal.hostScatterAdd
  rw [hz]
  exact congrArg _ (Finset.sum_congr rfl fun j hj => huv j (Finset.mem_filter.mp hj).2)

/-! ## The inverse square root of a degree, guarded at zero, is finite and not negative -/

/-- `where(x > 0, rsqrt x, 0)` is a non-negative real, whatever extended real `x` is. -/
theorem guarded_rsqrt_finite (x z z' : EReal) (hz : z = 0) (hz' : z' = 0) :
    0 ≤ Scalar.select (Ideal.cmp .ogt x z) (Ideal.rsqrt x) z'
      ∧ Scalar.select (Ideal.cmp .ogt x z) (Ideal.rsqrt x) z' ≠ ⊤ := by
  subst hz hz'
  unfold Scalar.select Ideal.cmp
  by_cases hx : (0 : EReal) < x
  · simp only [hx, decide_true, BitVec.ofBool_true, if_true]
    induction x using EReal.rec with
    | bot => exact absurd hx (by simp)
    | top =>
      rw [show Ideal.rsqrt (⊤ : EReal) = 0 from rfl]
      exact ⟨le_refl _, EReal.zero_ne_top⟩
    | coe r =>
      have hr : 0 < r := by exact_mod_cast hx
      rw [show Ideal.rsqrt (r : EReal) = if r < 0 then ⊥ else if r = 0 then ⊤ else (((Real.sqrt r)⁻¹ : ℝ) : EReal) from rfl,
        if_neg (not_lt.mpr hr.le), if_neg hr.ne']
      exact ⟨by exact_mod_cast inv_nonneg.mpr (Real.sqrt_nonneg r), EReal.coe_ne_top _⟩
  · simp only [hx, decide_false, BitVec.ofBool_false]
    simp

end Cert.RowsByIndex

end
-- ==== Proof.LibRowSums.lean ====
/-
  A scatter-add of whole rows, read at an entry.

  Rows `u : [E, C]` are added into a matrix `z : [N, C]` by an `[E, 1]` array of row numbers: update row
  `e` goes to the row whose number is entry `e`, read as a signed integer, and is dropped when that number
  is not a row of `z`.  Update entry `(e, c')` therefore lands on entry `(p, c)` exactly when the row number
  of `e` is `p` and `c' = c`: along the columns an update keeps its place.  So at exact values entry
  `(p, c)` of the result is `z (p, c)` plus the sum, over the update rows `e` whose row number is `p`, of
  `u (e, c)`.  The set of those rows depends on the row numbers and on `p` alone, not on the width `C`:
  this is what lets a scatter-add of wide rows be compared with one of narrow rows.
-/
import proofs.«147684_j45208825757773_2_alg».proof.Proof.LibRowsByIndex

noncomputable section

open scoped BigOperators

namespace Cert.RowSums

open Idealize.ShloMosaic Idealize.ShloMosaic.ValueIdx Cert.RowsByIndex

/-- The update rows whose row number, read signed, is `p`. -/
def landing {E w : ℕ} (idx : IVec ⟨2, ![E, 1]⟩ w) (p : ℕ) : Finset (Fin E) :=
  Finset.univ.filter fun e => (idx (ix2 e (0 : Fin 1))).toInt = (p : ℤ)

theorem mem_landing {E w : ℕ} (idx : IVec ⟨2, ![E, 1]⟩ w) (p : ℕ) (e : Fin E) :
    e ∈ landing idx p ↔ (idx (ix2 e (0 : Fin 1))).toInt = (p : ℤ) := by
  unfold landing; simp

/-- Along the columns the window of an update does not start anywhere but at the left edge. -/
theorem addRows_start_col {N E C w : ℕ} (wf : ScatterDims.WF ⟨2, ![N, C]⟩ ⟨2, ![E, 1]⟩ ⟨2, ![E, C]⟩ [1] [0] [0] 1)
    (idx : IVec ⟨2, ![E, 1]⟩ w) (e : Fin E) (c : Fin C) :
    (addRowsDims N E C wf).start (ix2 e c) idx 1 = 0 := by
  unfold ScatterDims.start
  rw [dif_neg (show ¬ (1 : Fin 2) ∈ (addRowsDims N E C wf).scatterDimsToOperandDims from
    (by decide : (1 : Fin 2) ∉ ([0] : List (Fin 2))))]

/-- Along the columns an update's window coordinate is its own column. -/
theorem addRows_window_col {N E C : ℕ} (wf : ScatterDims.WF ⟨2, ![N, C]⟩ ⟨2, ![E, 1]⟩ ⟨2, ![E, C]⟩ [1] [0] [0] 1)
    (e : Fin E) (c : Fin C) : (addRowsDims N E C wf).window (ix2 e c) 1 = c.val := by
  unfold ScatterDims.window
  rw [dif_pos (show (1 : Fin 2) ∈ (addRowsDims N E C wf).sKept from
    (by decide : (1 : Fin 2) ∈ (List.finRange 2).filter (· ∉ ([0] : List (Fin 2)))))]
  rfl

/-- Update entry `(e, c')` lands on entry `(p, c)` exactly when row `e`'s number is `p` and `c' = c`. -/
theorem addRows_lands_iff {N E C w : ℕ} (wf : ScatterDims.WF ⟨2, ![N, C]⟩ ⟨2, ![E, 1]⟩ ⟨2, ![E, C]⟩ [1] [0] [0] 1)
    (idx : IVec ⟨2, ![E, 1]⟩ w) (e : Fin E) (c' : Fin C) (p : Fin N) (c : Fin C) :
    (addRowsDims N E C wf).resultIdx? (ix2 e c') idx = some (ix2 p c)
      ↔ (idx (ix2 e (0 : Fin 1))).toInt = (p.val : ℤ) ∧ c' = c := by
  constructor
  · intro h
    have hrow := addRows_lands wf idx e c' (ix2 p c) h
    refine ⟨hrow, ?_⟩
    unfold ScatterDims.resultIdx? at h
    split at h
    · have hv : ((addRowsDims N E C wf).start (ix2 e c') idx 1 + ((addRowsDims N E C wf).window (ix2 e c') 1 : ℤ)).toNat = c.val :=
        congrArg Fin.val (congrFun (Option.some.inj h) 1)
      rw [addRows_start_col, addRows_window_col] at hv
      simp only [zero_add, Int.toNat_natCast] at hv
      exact Fin.ext hv
    · exact absurd h (by simp)
  · rintro ⟨hrow, rfl⟩
    unfold ScatterDims.resultIdx?
    have hall : ∀ a : Fin 2, 0 ≤ (addRowsDims N E C wf).start (ix2 e c') idx a + ((addRowsDims N E C wf).window (ix2 e c') a : ℤ)
        ∧ (addRowsDims N E C wf).start (ix2 e c') idx a + ((addRowsDims N E C wf).window (ix2 e c') a : ℤ) < ((⟨2, ![N, C]⟩ : Shape).size a : ℤ) := by
      intro a
      match a with
      | ⟨0, _⟩ =>
        show 0 ≤ (addRowsDims N E C wf).start (ix2 e c') idx 0 + ((addRowsDims N E C wf).window (ix2 e c') 0 : ℤ)
          ∧ (addRowsDims N E C wf).start (ix2 e c') idx 0 + ((addRowsDims N E C wf).window (ix2 e c') 0 : ℤ) < (N : ℤ)
        rw [addRows_start, addRows_window, hrow]
        have := p.isLt
        simp only [Nat.cast_zero, add_zero]
        omega
      | ⟨1, _⟩ =>
        show 0 ≤ (addRowsDims N E C wf).start (ix2 e c') idx 1 + ((addRowsDims N E C wf).window (ix2 e c') 1 : ℤ)
          ∧ (addRowsDims N E C wf).start (ix2 e c') idx 1 + ((addRowsDims N E C wf).window (ix2 e c') 1 : ℤ) < (C : ℤ)
        rw [addRows_start_col, addRows_window_col]
        have := c'.isLt
        omega
    rw [dif_pos hall]
    congr 1
    funext a
    refine Fin.ext ?_
    match a with
    | ⟨0, _⟩ =>
      show ((addRowsDims N E C wf).start (ix2 e c') idx 0 + ((addRowsDims N E C wf).window (ix2 e c') 0 : ℤ)).toNat = p.val
      rw [addRows_start, addRows_window, hrow]
      simp
    | ⟨1, _⟩ =>
      show ((addRowsDims N E C wf).start (ix2 e c') idx 1 + ((addRowsDims N E C wf).window (ix2 e c') 1 : ℤ)).toNat = c'.val
      rw [addRows_start_col, addRows_window_col]
      simp

/-- Entry `(p, c)` of a scatter-add of rows is the entry plus the sum of column `c` of the rows landing on `p`. -/
theorem scatterAdd_rows_apply {N E C w : ℕ} {φ : FTy}
    (wf : ScatterDims.WF ⟨2, ![N, C]⟩ ⟨2, ![E, 1]⟩ ⟨2, ![E, C]⟩ [1] [0] [0] 1)
    (z : (⟨2, ![N, C]⟩ : Shape).Idx → EReal) (idx : IVec ⟨2, ![E, 1]⟩ w) (u : (⟨2, ![E, C]⟩ : Shape).Idx → EReal)
    (p : Fin N) (c : Fin C) :
    Host.scatterAdd (F := Ideal) (φ := φ) (addRowsDims N E C wf) z idx u (ix2 p c)
      = z (ix2 p c) + ∑ e ∈ landing idx p.val, u (ix2 e c) := by
  show Ideal.hostScatterAdd (addRowsDims N E C wf) z idx u (ix2 p c) = _
  unfold Ideal.hostScatterAdd
  congr 1
  refine Finset.sum_nbij' (fun j => (⟨(j 0).val, idx2_lt0 j⟩ : Fin E)) (fun e => ix2 e c) ?_ ?_ ?_ ?_ ?_
  · intro j hj
    have hP := (Finset.mem_filter.mp hj).2
    rw [eq_ix2 j] at hP
    exact (mem_landing idx p.val _).mpr ((addRows_lands_iff wf idx _ _ p c).mp hP).1
  · intro e he
    exact Finset.mem_filter.mpr ⟨Finset.mem_univ _, (addRows_lands_iff wf idx e c p c).mpr ⟨(mem_landing idx p.val e).mp he, rfl⟩⟩
  · intro j hj
    have hP := (Finset.mem_filter.mp hj).2
    rw [eq_ix2 j] at hP
    have hc := ((addRows_lands_iff wf idx _ _ p c).mp hP).2
    conv_rhs => rw [eq_ix2 j]
    rw [hc]
    rfl
  · intro e _
    exact Fin.ext rfl
  · intro j hj
    have hP := (Finset.mem_filter.mp hj).2
    rw [eq_ix2 j] at hP
    have hc := ((addRows_lands_iff wf idx _ _ p c).mp hP).2
    conv_lhs => rw [eq_ix2 j]
    rw [hc]
    rfl

end Cert.RowSums

end
-- ==== Proof.Linear.lean ====
/-
  Taking the neighbours' rows and adding them up commutes with a product on the right.

  For a real matrix `x` with rows `x_p`, a real matrix `W`, and for each node `p` a finite family of rows
  `x_{g e}` (`e` ranging over the edges that end at `p`),

      x_p · W  +  ∑_e (x_{g e} · W)   =   (x_p + ∑_e x_{g e}) · W .

  This is distributivity of the product over a finite sum, so it is a law of the reals and not of the
  extended reals: it is stated for entries that are real numbers, read inside the extended reals.
-/
import Idealize.ShloMosaic.PureOps.Ideal.Laws

noncomputable section

open scoped BigOperators

namespace Cert.Linear

/-- The embedding of the reals in the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of reals, read in the extended reals, is the real sum. -/
theorem coe_dot {κ : Type*} (s : Finset κ) (a b : κ → ℝ) :
    (∑ k ∈ s, (a k : EReal) * (b k : EReal)) = ((∑ k ∈ s, a k * b k : ℝ) : EReal) := by
  rw [coe_sum]; exact Finset.sum_congr rfl fun k _ => (EReal.coe_mul _ _).symm

/-- Row `p` times `W`, plus the sum of the neighbours' rows each times `W`, is the row plus the sum of the
    neighbours' rows, times `W` — entry by entry, for real data; both sums of neighbours start from zero. -/
theorem agg_mul {κ ε : Type*} [Fintype κ] (S : Finset ε) (xp : κ → ℝ) (xg : ε → κ → ℝ) (w : κ → ℝ) :
    (∑ k, (xp k : EReal) * (w k : EReal)) + (0 + ∑ e ∈ S, ∑ k, (xg e k : EReal) * (w k : EReal))
      = ∑ k, ((xp k : EReal) + (0 + ∑ e ∈ S, (xg e k : EReal))) * (w k : EReal) := by
  have hl : (∑ e ∈ S, ∑ k, (xg e k : EReal) * (w k : EReal)) = ((∑ e ∈ S, ∑ k, xg e k * w k : ℝ) : EReal) := by
    rw [coe_sum]; exact Finset.sum_congr rfl fun e _ => coe_dot _ _ _
  have hr : ∀ k, ((xp k : EReal) + (0 + ∑ e ∈ S, (xg e k : EReal))) * (w k : EReal)
      = (((xp k + ∑ e ∈ S, xg e k) * w k : ℝ) : EReal) := by
    intro k
    rw [zero_add, ← coe_sum, ← EReal.coe_add, ← EReal.coe_mul]
  rw [coe_dot, hl, zero_add, ← EReal.coe_add, Finset.sum_congr rfl fun k _ => hr k, ← coe_sum]
  congr 1
  simp only [add_mul, Finset.sum_add_distrib, Finset.sum_mul]
  congr 1
  exact Finset.sum_comm

end Cert.Linear

end
-- ==== Proof.BridgeAgg.lean ====
/-
  The node embeddings of the two programs are the same function of the arguments.

  The reference adds up the neighbours' features first and projects after: `(x + ∑ x[src]) · W1`.  The kernel
  projects first and adds up the neighbours' projected rows: `x · W1 + ∑ (x · W1)[src]`.  Both neighbour
  sums run over the same edges (those whose target, read as a signed row number, is the node; a source is
  read signed, wrapped once if negative, and clamped) whatever the width of the rows, so entry by entry
  the two are the two sides of the distributive law, which holds because `x` and `W1` are real.  From there
  on the programs apply the same operations to equal arrays: bias, `relu`, product with `W2`, bias, `relu`;
  the neighbour sum of the hidden features; product with `W3`, bias, `relu`, product with `W4`, bias.
-/
import proofs.«147684_j45208825757773_2_alg».proof.Proof.Gen.ReferenceIdeal.Read
import proofs.«147684_j45208825757773_2_alg».proof.Proof.HostGlue
import proofs.«147684_j45208825757773_2_alg».proof.Proof.LibRowSums
import proofs.«147684_j45208825757773_2_alg».proof.Proof.Linear

set_option maxRecDepth 16384

noncomputable section

open scoped BigOperators

namespace Cert.Bridge

open Idealize.ShloMosaic Idealize.ShloMosaic.ValueIdx Cert.Spec Cert.RowsByIndex Cert.RowSums
open Cert.KernelIdeal.HostGlue (srcOf dstOf aggOf hidden embed)
open Cert.ReferenceIdeal Cert.ReferenceIdeal.Gen Cert.ReferenceIdeal.Read

/-- The zero matrix the neighbour sums start from. -/
theorem zeros_apply {s : Shape} (h : S_.BroadcastsInDim s (![] : Fin 0 → Fin s.rank)) (i : s.Idx) :
    broadcastInDim s ![] h (constant (F := Ideal) S_ .f32 0x00000000#32) i = 0 := by
  rw [broadcastInDim_apply _ h _ i ix0 (fun a => a.elim0)]
  exact Ideal.ofBits_zero_f32

/-! ## Where the reference's products read their operands -/

theorem lidx15 (p : Fin 100000) (c : Fin 64) (k : Fin 128) : lidx_main_v15 (ix2 p c) k = ix2 p k :=
  funext fun a => Fin.ext (by match a with | ⟨0, _⟩ => rfl | ⟨1, _⟩ => rfl)
theorem ridx15 (p : Fin 100000) (c : Fin 64) (k : Fin 128) : ridx_main_v15 (ix2 p c) k = ix2 k c :=
  funext fun a => Fin.ext (by match a with | ⟨0, _⟩ => rfl | ⟨1, _⟩ => rfl)
theorem lidx20 (p : Fin 100000) (c : Fin 64) (k : Fin 64) : lidx_main_v20 (ix2 p c) k = ix2 p k :=
  funext fun a => Fin.ext (by match a with | ⟨0, _⟩ => rfl | ⟨1, _⟩ => rfl)
theorem ridx20 (p : Fin 100000) (c : Fin 64) (k : Fin 64) : ridx_main_v20 (ix2 p c) k = ix2 k c :=
  funext fun a => Fin.ext (by match a with | ⟨0, _⟩ => rfl | ⟨1, _⟩ => rfl)
theorem lidx40 (p : Fin 100000) (c : Fin 64) (k : Fin 64) : lidx_main_v40 (ix2 p c) k = ix2 p k :=
  funext fun a => Fin.ext (by match a with | ⟨0, _⟩ => rfl | ⟨1, _⟩ => rfl)
theorem ridx40 (p : Fin 100000) (c : Fin 64) (k : Fin 64) : ridx_main_v40 (ix2 p c) k = ix2 k c :=
  funext fun a => Fin.ext (by match a with | ⟨0, _⟩ => rfl | ⟨1, _⟩ => rfl)
theorem lidx45 (p : Fin 100000) (c : Fin 128) (k : Fin 64) : lidx_main_v45 (ix2 p c) k = ix2 p k :=
  funext fun a => Fin.ext (by match a with | ⟨0, _⟩ => rfl | ⟨1, _⟩ => rfl)
theorem ridx45 (p : Fin 100000) (c : Fin 128) (k : Fin 64) : ridx_main_v45 (ix2 p c) k = ix2 k c :=
  funext fun a => Fin.ext (by match a with | ⟨0, _⟩ => rfl | ⟨1, _⟩ => rfl)

/-! ## The two neighbour sums at an entry -/

/-- The reference's neighbour sum of the features: the sum, over the edges landing on the node, of the
    feature at the edge's source. -/
theorem ref_agg_apply (x0 : FVec Ideal S100000x128 .f32) (x1 : IVec S2x1600000 32) (p : Fin 100000) (k : Fin 128) :
    val_main_v13 (F := Ideal) x0 x1 (ix2 p k)
      = 0 + ∑ e ∈ landing (val_main_v12 (F := Ideal) x1) p.val,
          x0 (ix2 (clampRow 100000 (by decide) (val_main_v9 (F := Ideal) x1 (ix2 e (0 : Fin 1)))) k) := by
  unfold val_main_v13
  refine (scatterAdd_rows_apply (φ := .f32) scatter_S100000x128_S1600000x1_S1600000x128_1_0_0_1_wf _ _ _ p k).trans ?_
  refine congrArg₂ (· + ·) (zeros_apply _ _) (Finset.sum_congr rfl fun e _ => ?_)
  unfold val_main_v10
  exact gather_rows_apply (by decide) gather_S100000x128_S1600000x1_S1600000x128_1_0_n_n_0_1_1128_wf x0 _ e k

/-- The kernel's neighbour sum of a 64-wide matrix: over the same edges, the entry at the same source. -/
theorem ker_agg_apply (Y : FVec Ideal Cert.KernelIdeal.S100000x64 .f32) (x1 : IVec S2x1600000 32) (p : Fin 100000) (c : Fin 64) :
    aggOf Y (srcOf x1) (dstOf x1) (ix2 p c)
      = 0 + ∑ e ∈ landing (val_main_v12 (F := Ideal) x1) p.val,
          Y (ix2 (clampRow 100000 (by decide) (val_main_v9 (F := Ideal) x1 (ix2 e (0 : Fin 1)))) c) := by
  unfold aggOf
  refine (scatterAdd_rows_apply (φ := .f32) Cert.KernelIdeal.Gen.scatter_S100000x64_S1600000x1_S1600000x64_1_0_0_1_wf _ _ _ p c).trans ?_
  refine congrArg₂ (· + ·) (zeros_apply _ _) (Finset.sum_congr rfl fun e _ => ?_)
  exact gather_rows_apply (by decide) Cert.KernelIdeal.Gen.gather_S100000x64_S1600000x1_S1600000x64_1_0_n_n_0_1_164_wf Y _ e c

/-! ## The first convolution's linear part -/

/-- Projecting then adding up the neighbours is adding up the neighbours then projecting, for real `x`, `W1`. -/
theorem conv1_lin (x0 : FVec Ideal S100000x128 .f32) (x1 : IVec S2x1600000 32) (x3 : FVec Ideal S128x64 .f32)
    (h0 : ∀ i, x0 i ≠ ⊤ ∧ x0 i ≠ ⊥) (h3 : ∀ i, x3 i ≠ ⊤ ∧ x3 i ≠ ⊥) (p : Fin 100000) (c : Fin 64) :
    prod (n := 100000) (K := 128) (m := 64) x0 x3 (ix2 p c)
        + aggOf (prod (n := 100000) (K := 128) (m := 64) x0 x3) (srcOf x1) (dstOf x1) (ix2 p c)
      = val_main_v15 (F := Ideal) x0 x1 x3 (ix2 p c) := by
  obtain ⟨r0, rfl⟩ : ∃ r : S100000x128.Idx → ℝ, x0 = fun i => ((r i : ℝ) : EReal) :=
    ⟨fun i => (x0 i).toReal, funext fun i => (EReal.coe_toReal (h0 i).1 (h0 i).2).symm⟩
  obtain ⟨r3, rfl⟩ : ∃ r : S128x64.Idx → ℝ, x3 = fun i => ((r i : ℝ) : EReal) :=
    ⟨fun i => (x3 i).toReal, funext fun i => (EReal.coe_toReal (h3 i).1 (h3 i).2).symm⟩
  rw [ker_agg_apply, val_main_v15_apply]
  have hprod : ∀ q : Fin 100000, prod (n := 100000) (K := 128) (m := 64) (fun i => ((r0 i : ℝ) : EReal)) (fun i => ((r3 i : ℝ) : EReal)) (ix2 q c)
      = ∑ k : Fin 128, ((r0 (ix2 q k) : ℝ) : EReal) * ((r3 (ix2 k c) : ℝ) : EReal) := fun q => rfl
  have hR : ∀ k : Fin 128, val_main_v14 (F := Ideal) (fun i => ((r0 i : ℝ) : EReal)) x1 (lidx_main_v15 (ix2 p c) k) * ((r3 (ridx_main_v15 (ix2 p c) k) : ℝ) : EReal)
      = (((r0 (ix2 p k) : ℝ) : EReal) + (0 + ∑ e ∈ landing (val_main_v12 (F := Ideal) x1) p.val,
          ((r0 (ix2 (clampRow 100000 (by decide) (val_main_v9 (F := Ideal) x1 (ix2 e (0 : Fin 1)))) k) : ℝ) : EReal))) * ((r3 (ix2 k c) : ℝ) : EReal) := by
    intro k
    rw [lidx15, ridx15, val_main_v14_apply, ref_agg_apply]
    rfl
  rw [hprod p, Finset.sum_congr rfl fun e _ => hprod _, Finset.sum_congr rfl fun k _ => hR k]
  exact Cert.Linear.agg_mul (landing (val_main_v12 (F := Ideal) x1) p.val) (fun k => r0 (ix2 p k))
    (fun e k => r0 (ix2 (clampRow 100000 (by decide) (val_main_v9 (F := Ideal) x1 (ix2 e (0 : Fin 1)))) k))
    (fun k => r3 (ix2 k c))

end Cert.Bridge

end
-- ==== Proof.BridgeHidden.lean ====
/-
  The hidden features of the two programs agree.

  Entry by entry both are `relu (relu (u + b1) · W2 + b2)`, where `u` is the first convolution's linear part:
  for the kernel the projected row plus the neighbours' projected rows, for the reference the projected sum
  of the row and its neighbours' rows, equal for real `x`, `W1`.  The biases reach the kernel as one-row
  matrices and the reference as rows repeated down the matrix; either way entry `(p, k)` sees `b k`.
-/
import proofs.«147684_j45208825757773_2_alg».proof.Proof.BridgeAgg

set_option maxRecDepth 16384

noncomputable section

open scoped BigOperators

namespace Cert.Bridge

open Idealize.ShloMosaic Idealize.ShloMosaic.ValueIdx Cert.Spec Cert.RowsByIndex Cert.RowSums
open Cert.KernelIdeal.HostGlue (srcOf dstOf aggOf hidden embed)
open Cert.ReferenceIdeal Cert.ReferenceIdeal.Gen Cert.ReferenceIdeal.Read

theorem bias64 (b : FVec Ideal S64 .f32) (p : Fin 100000) (k : Fin 64)
    (idx17 : S100000x64.Idx → S1x64.Idx) (idx16 : S1x64.Idx → S64.Idx)
    (h17 : idx17 (ix2 p k) = ix2 (0 : Fin 1) k) (h16 : idx16 (ix2 (0 : Fin 1) k) = ix1 k) :
    shapeCast Cert.KernelIdeal.S1x64 b Cert.KernelIdeal.Gen.shapeCasts_S64_S1x64 (ix2 (0 : Fin 1) k) = b (idx16 (idx17 (ix2 p k))) := by
  rw [h17, h16]; exact rowOf_apply b _ k

theorem i17 (p : Fin 100000) (k : Fin 64) : idx_main_v17 (ix2 p k) = ix2 (0 : Fin 1) k :=
  funext fun a => Fin.ext (by match a with | ⟨0, _⟩ => rfl | ⟨1, _⟩ => rfl)
theorem i16 (k : Fin 64) : idx_main_v16 (ix2 (0 : Fin 1) k) = ix1 k :=
  funext fun a => Fin.ext (by match a with | ⟨0, _⟩ => rfl)
theorem i22 (p : Fin 100000) (k : Fin 64) : idx_main_v22 (ix2 p k) = ix2 (0 : Fin 1) k :=
  funext fun a => Fin.ext (by match a with | ⟨0, _⟩ => rfl | ⟨1, _⟩ => rfl)
theorem i21 (k : Fin 64) : idx_main_v21 (ix2 (0 : Fin 1) k) = ix1 k :=
  funext fun a => Fin.ext (by match a with | ⟨0, _⟩ => rfl)
theorem i42 (p : Fin 100000) (k : Fin 64) : idx_main_v42 (ix2 p k) = ix2 (0 : Fin 1) k :=
  funext fun a => Fin.ext (by match a with | ⟨0, _⟩ => rfl | ⟨1, _⟩ => rfl)
theorem i41 (k : Fin 64) : idx_main_v41 (ix2 (0 : Fin 1) k) = ix1 k :=
  funext fun a => Fin.ext (by match a with | ⟨0, _⟩ => rfl)
theorem i47 (p : Fin 100000) (k : Fin 128) : idx_main_v47 (ix2 p k) = ix2 (0 : Fin 1) k :=
  funext fun a => Fin.ext (by match a with | ⟨0, _⟩ => rfl | ⟨1, _⟩ => rfl)
theorem i46 (k : Fin 128) : idx_main_v46 (ix2 (0 : Fin 1) k) = ix1 k :=
  funext fun a => Fin.ext (by match a with | ⟨0, _⟩ => rfl)

/-- The kernel's hidden features are the reference's. -/
theorem hidden_eq (x0 : FVec Ideal S100000x128 .f32) (x1 : IVec S2x1600000 32) (x3 : FVec Ideal S128x64 .f32)
    (x4 : FVec Ideal S64 .f32) (x5 : FVec Ideal S64x64 .f32) (x6 : FVec Ideal S64 .f32)
    (h0 : ∀ i, x0 i ≠ ⊤ ∧ x0 i ≠ ⊥) (h3 : ∀ i, x3 i ≠ ⊤ ∧ x3 i ≠ ⊥) :
    hidden x0 x1 x3 x4 x5 x6 = val_main_v24 (F := Ideal) x0 x1 x3 x4 x5 x6 := by
  funext i
  obtain ⟨p, c, rfl⟩ : ∃ (p : Fin 100000) (c : Fin 64), i = ix2 p c := ⟨i 0, i 1, eq_ix2 i⟩
  unfold Cert.KernelIdeal.HostGlue.hidden layer1
  rw [val_main_v24_apply, val_main_v23_apply, val_main_v20_apply]
  simp only [Ideal.maximumf_def, Ideal.addf_def]
  refine congrArg₂ max (congrArg₂ (· + ·) (Finset.sum_congr rfl fun k _ => ?_) ?_) ?_
  · rw [lidx20, ridx20, val_main_v19_apply, val_main_v18_apply]
    simp only [Ideal.maximumf_def, Ideal.addf_def]
    refine congrArg₂ (· * ·) (congrArg₂ max (congrArg₂ (· + ·) (conv1_lin x0 x1 x3 h0 h3 p k) ?_) ?_) rfl
    · rw [val_main_v17_apply, val_main_v16_apply]
      exact bias64 x4 p k idx_main_v17 idx_main_v16 (i17 p k) (i16 k)
    · rw [val_main_call0_v0_apply, val_main_call0_cst_apply]; rfl
  · rw [val_main_v22_apply, val_main_v21_apply]
    exact bias64 x6 p c idx_main_v22 idx_main_v21 (i22 p c) (i21 c)
  · rw [val_main_call1_v0_apply, val_main_call1_cst_apply]; rfl

end Cert.Bridge

end
-- ==== Proof.BridgeEmbed.lean ====
/-
  The node embeddings of the two programs agree.

  Entry by entry both are `relu ((h + a) · W3 + b3) · W4 + b4` with `h` the hidden features, equal by the
  first convolution, and `a` their neighbour sum, one function of `h` and the edge list in both programs.
-/
import proofs.«147684_j45208825757773_2_alg».proof.Proof.BridgeHidden

set_option maxRecDepth 16384

noncomputable section

open scoped BigOperators

namespace Cert.Bridge

open Idealize.ShloMosaic Idealize.ShloMosaic.ValueIdx Cert.Spec Cert.RowsByIndex Cert.RowSums
open Cert.KernelIdeal.HostGlue (srcOf dstOf aggOf hidden embed)
open Cert.ReferenceIdeal Cert.ReferenceIdeal.Gen Cert.ReferenceIdeal.Read

theorem bias128 (b : FVec Ideal S128 .f32) (p : Fin 100000) (k : Fin 128) :
    shapeCast Cert.KernelIdeal.S1x128 b Cert.KernelIdeal.Gen.shapeCasts_S128_S1x128 (ix2 (0 : Fin 1) k)
      = b (idx_main_v46 (idx_main_v47 (ix2 p k))) := by
  rw [i47, i46]; exact rowOf_apply b _ k

/-- The neighbour sum of the hidden features is one function in both programs: the same rows taken by the same
    sources and added into zero by the same targets. -/
theorem agg_hidden_eq (x0 : FVec Ideal S100000x128 .f32) (x1 : IVec S2x1600000 32) (x3 : FVec Ideal S128x64 .f32)
    (x4 : FVec Ideal S64 .f32) (x5 : FVec Ideal S64x64 .f32) (x6 : FVec Ideal S64 .f32) :
    aggOf (val_main_v24 (F := Ideal) x0 x1 x3 x4 x5 x6) (srcOf x1) (dstOf x1) = val_main_v38 (F := Ideal) x0 x1 x3 x4 x5 x6 := by
  unfold aggOf val_main_v38
  rfl

/-- The kernel's node embeddings are the reference's. -/
theorem embed_eq (x0 : FVec Ideal S100000x128 .f32) (x1 : IVec S2x1600000 32) (x3 : FVec Ideal S128x64 .f32)
    (x4 : FVec Ideal S64 .f32) (x5 : FVec Ideal S64x64 .f32) (x6 : FVec Ideal S64 .f32) (x7 : FVec Ideal S64x64 .f32)
    (x8 : FVec Ideal S64 .f32) (x9 : FVec Ideal S64x128 .f32) (x10 : FVec Ideal S128 .f32)
    (h0 : ∀ i, x0 i ≠ ⊤ ∧ x0 i ≠ ⊥) (h3 : ∀ i, x3 i ≠ ⊤ ∧ x3 i ≠ ⊥) :
    embed x0 x1 x3 x4 x5 x6 x7 x8 x9 x10 = val_main_v48 (F := Ideal) x0 x1 x3 x4 x5 x6 x7 x8 x9 x10 := by
  funext i
  obtain ⟨p, c, rfl⟩ : ∃ (p : Fin 100000) (c : Fin 128), i = ix2 p c := ⟨i 0, i 1, eq_ix2 i⟩
  unfold embed layer2
  rw [hidden_eq x0 x1 x3 x4 x5 x6 h0 h3, val_main_v48_apply, val_main_v45_apply]
  simp only [Ideal.addf_def]
  refine congrArg₂ (· + ·) (Finset.sum_congr rfl fun k _ => ?_) ?_
  · rw [lidx45, ridx45, val_main_v44_apply, val_main_v43_apply, val_main_v40_apply]
    simp only [Ideal.maximumf_def, Ideal.addf_def]
    refine congrArg₂ (· * ·) (congrArg₂ max (congrArg₂ (· + ·) (Finset.sum_congr rfl fun j _ => ?_) ?_) ?_) rfl
    · rw [lidx40, ridx40, val_main_v39_apply]
      simp only [Ideal.addf_def]
      rw [← agg_hidden_eq x0 x1 x3 x4 x5 x6]
    · rw [val_main_v42_apply, val_main_v41_apply]
      exact bias64 x8 p k idx_main_v42 idx_main_v41 (i42 p k) (i41 k)
    · rw [val_main_call2_v0_apply, val_main_call2_cst_apply]; rfl
  · rw [val_main_v47_apply, val_main_v46_apply]
    exact bias128 x10 p c

end Cert.Bridge

end
-- ==== Proof.Finite.lean ====
/-
  Finite inputs are real numbers.

  The precondition is a conjunction, one conjunct per float input: `|a| < +∞` at every entry of the input.
  At exact values an entry ranges over the extended reals, and `max a (−a) < +∞` leaves out both infinities.
  Only the node features `x` and the first weight matrix `W1` are needed as real numbers: the one law that
  joins the two programs, distributivity of their product over the neighbours' sum, is a law of the reals.
-/
import proofs.«147684_j45208825757773_2_alg».proof.Pre_finite_inputs
import Idealize.ShloMosaic.Lib.ReduceAll
import Idealize.ShloMosaic.Lib.ValueIdx
import Idealize.ShloMosaic.Lib.Pipeline.Value
import Idealize.ShloMosaic.Lib.Affine
import Idealize.ShloMosaic.PureOps.Ideal.Laws

noncomputable section

namespace Cert.FiniteInputs

open Idealize.ShloMosaic Idealize.ShloMosaic.ValueIdx Cert.Pre_finite_inputs

instance : Subsingleton S_.Idx := ⟨fun a b => funext fun d => d.elim0⟩

/-- The bound of the comparison is `+∞`. -/
theorem ofBits_inf : Ideal.ofBits .f32 0x7F800000#32 = (⊤ : EReal) := by simp [Ideal.ofBits, Ideal.ieee]

/-- An extended real whose absolute value is below `+∞` is neither infinity. -/
theorem real_of_abs_lt (x : EReal) (h : Ideal.cmp .olt (max x (-x)) (Ideal.ofBits .f32 0x7F800000#32) = 1#1) :
    x ≠ ⊤ ∧ x ≠ ⊥ := by
  rw [ofBits_inf] at h
  have hlt : max x (-x) < ⊤ := by
    unfold Ideal.cmp at h
    by_contra hn
    simp [hn] at h
  induction x using EReal.rec with
  | bot => exact absurd hlt (by simp)
  | top => exact absurd hlt (by simp)
  | coe r => exact ⟨EReal.coe_ne_top r, EReal.coe_ne_bot r⟩

variable [Cert.Pre_finite_inputs.Facts]

/-- Under the precondition every entry of `x` and of `W1` is a real number. -/
theorem real_x_W1 (a0 : FVec Ideal S100000x128 .f32) (a1 : IVec S2x1600000 32) (a2 : IVec S100000 32)
    (a3 : FVec Ideal S128x64 .f32) (a4 : FVec Ideal S64 .f32) (a5 : FVec Ideal S64x64 .f32) (a6 : FVec Ideal S64 .f32)
    (a7 : FVec Ideal S64x64 .f32) (a8 : FVec Ideal S64 .f32) (a9 : FVec Ideal S64x128 .f32) (a10 : FVec Ideal S128 .f32)
    (a11 : FVec Ideal S128x10 .f32) (a12 : FVec Ideal S10 .f32)
    (h : Cert.Pre_finite_inputs.fn (F := Ideal) a0 a1 a2 a3 a4 a5 a6 a7 a8 a9 a10 a11 a12 = fun _ => 1#1) :
    (∀ i, a0 i ≠ ⊤ ∧ a0 i ≠ ⊥) ∧ (∀ i, a3 i ≠ ⊤ ∧ a3 i ≠ ⊥) := by
  have h53 := congrFun h ix0
  dsimp only [fn, fn_part1, fn_part2, fn_part3] at h53
  obtain ⟨h48, -⟩ := IntOp.andi_eq_one.mp h53
  obtain ⟨h43, -⟩ := IntOp.andi_eq_one.mp h48
  obtain ⟨h38, -⟩ := IntOp.andi_eq_one.mp h43
  obtain ⟨h33, -⟩ := IntOp.andi_eq_one.mp h38
  obtain ⟨h28, -⟩ := IntOp.andi_eq_one.mp h33
  obtain ⟨h23, -⟩ := IntOp.andi_eq_one.mp h28
  obtain ⟨h18, -⟩ := IntOp.andi_eq_one.mp h23
  obtain ⟨h13, -⟩ := IntOp.andi_eq_one.mp h18
  obtain ⟨h8, -⟩ := IntOp.andi_eq_one.mp h13
  obtain ⟨h3, h7⟩ := IntOp.andi_eq_one.mp h8
  refine ⟨fun i => ?_, fun i => ?_⟩
  · have e := Host.reduce_andi_all _ _ _ _ _ h3 i
    rw [cmpf_apply, broadcastInDim_apply _ _ _ i ix0 (fun a => a.elim0)] at e
    exact real_of_abs_lt _ e
  · have e := Host.reduce_andi_all _ _ _ _ _ h7 i
    rw [cmpf_apply, broadcastInDim_apply _ _ _ i ix0 (fun a => a.elim0)] at e
    exact real_of_abs_lt _ e

end Cert.FiniteInputs

end
-- ==== Proof.lean ====
/-
  The certificate: a three-stage graph network on row blocks against the plain reference.

  Both programs compute, for a graph with node features `x`, two rounds of "a node's row plus the sum of its
  neighbours' rows, through a two-layer perceptron", then the mean over each graph's nodes, a linear
  classifier and a log-softmax.  The kernel differs in the first round only: it multiplies by `W1` before
  adding up the neighbours (half the width to move), where the reference adds up first.  Over the extended
  reals the two orders agree because the product distributes over the neighbours' sum when `x` and `W1`
  are real, which is what the precondition gives.  The dense parts run as three grid stages over blocks of
  rows; each is a row-by-row function of whole arrays, so its blocks assemble to that function of the whole
  arrays.  The change of float format before each product is the identity at exact values, and nothing in
  the kernel was rewritten on the way to its idealized form, so there is nothing to preserve beyond the text.
-/
import proofs.«147684_j45208825757773_2_alg».proof.Defs
import proofs.«147684_j45208825757773_2_alg».proof.Proof.Gen.Kernel
import proofs.«147684_j45208825757773_2_alg».proof.Proof.Gen.Kernel.Skeleton
import proofs.«147684_j45208825757773_2_alg».proof.Proof.Gen.Kernel.Launch
import proofs.«147684_j45208825757773_2_alg».proof.Proof.Gen.Kernel.Points
import proofs.«147684_j45208825757773_2_alg».proof.Proof.Gen.Kernel.Frame
import proofs.«147684_j45208825757773_2_alg».proof.Proof.Gen.KernelIdeal
import proofs.«147684_j45208825757773_2_alg».proof.Proof.Gen.KernelIdeal.Skeleton
import proofs.«147684_j45208825757773_2_alg».proof.Proof.Gen.KernelIdeal.Launch
import proofs.«147684_j45208825757773_2_alg».proof.Proof.Gen.KernelIdeal.Points
import proofs.«147684_j45208825757773_2_alg».proof.Proof.Gen.KernelIdeal.Frame
import proofs.«147684_j45208825757773_2_alg».proof.Proof.Gen.ReferenceIdeal
import proofs.«147684_j45208825757773_2_alg».proof.Proof.Gen.Pre_finite_inputs
import proofs.«147684_j45208825757773_2_alg».proof.Proof.Gen.ReferenceIdeal.Run
import proofs.«147684_j45208825757773_2_alg».proof.Proof.Gen.ReferenceIdeal.Read
import proofs.«147684_j45208825757773_2_alg».proof.Proof.KernelRun
import proofs.«147684_j45208825757773_2_alg».proof.Proof.HostGlue
import proofs.«147684_j45208825757773_2_alg».proof.Proof.BridgeEmbed
import proofs.«147684_j45208825757773_2_alg».proof.Proof.Finite
import proofs.«147684_j45208825757773_2_alg».proof.Proof.Tail
import Idealize.ShloMosaic.Adequacy
import Idealize.ShloMosaic.Init

set_option maxRecDepth 16384

noncomputable section

namespace Cert.Proof

open Idealize.ShloMosaic Idealize.SL.Sem

/-- The kernel as printed runs, and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does its idealized form. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is host operations only: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both idealized programs end at `tail` of the same node
    embeddings: the kernel's by its run read at the result buffer, the reference's by its run read stage by
    stage, the two embeddings equal because the kernel's `x` and `W1` are real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Tail.tail (F := Ideal)
      (Cert.ReferenceIdeal.Read.val_main_v48 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)))
      (m ((c.tc : Thread Cert.KernelIdeal.nD Cert.KernelIdeal.τ).loc Cert.KernelIdeal.main_arg2)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · refine (θ_run Cert.KernelIdeal.defs _ _).mono (fun _ h c => ⟨(h c).1.trans ?_, (h c).2⟩)
      (Cert.KernelIdeal.RunValue.run_named (F := Ideal) m ρ)
    obtain ⟨hx, hw⟩ := Cert.FiniteInputs.real_x_W1 _ _ _ _ _ _ _ _ _ _ _ _ _ (hpre c)
    rw [Cert.KernelIdeal.HostGlue.result_eq m ρ c, Cert.Bridge.embed_eq _ _ _ _ _ _ _ _ _ _ hx hw]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v65_eq, Cert.Tail.ref_eq,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
